-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x10 .f32) (main_arg12 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x10 .f32) (main_arg12 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x10 .f32) (main_arg12 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x64 : Shape := ⟨2, ![10000, 64]⟩
abbrev S850000x64 : Shape := ⟨2, ![850000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S1x10 : Shape := ⟨2, ![1, 10]⟩
abbrev S500x10 : Shape := ⟨2, ![500, 10]⟩

abbrev nBuf : Space → Nat
  | .hbm => 120
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x64, .f32⟩
  | .hbm, ⟨93, _⟩ => ⟨S850000x64, .f32⟩
  | .hbm, ⟨94, _⟩ => ⟨S850000x64, .f32⟩
  | .hbm, ⟨95, _⟩ => ⟨S_, .f32⟩
  | .hbm, ⟨96, _⟩ => ⟨S50000x64, .f32⟩
  | .hbm, ⟨97, _⟩ => ⟨S850000x1, .i32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S_, .f32⟩
  | .hbm, ⟨102, _⟩ => ⟨S500x64, .f32⟩
  | .hbm, ⟨103, _⟩ => ⟨S50000x1, .i32⟩
  | .hbm, ⟨104, _⟩ => ⟨S500x64, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S500, .f32⟩
  | .hbm, ⟨109, _⟩ => ⟨S50000x1, .i32⟩
  | .hbm, ⟨110, _⟩ => ⟨S500, .f32⟩
  | .hbm, ⟨111, _⟩ => ⟨S_, .f32⟩
  | .hbm, ⟨112, _⟩ => ⟨S500, .f32⟩
  | .hbm, ⟨113, _⟩ => ⟨S500, .f32⟩
  | .hbm, ⟨114, _⟩ => ⟨S500x1, .f32⟩
  | .hbm, ⟨115, _⟩ => ⟨S500x64, .f32⟩
  | .hbm, ⟨116, _⟩ => ⟨S500x64, .f32⟩
  | .hbm, ⟨117, _⟩ => ⟨S1x64, .f32⟩
  | .hbm, ⟨118, _⟩ => ⟨S1x10, .f32⟩
  | .hbm, ⟨119, _⟩ => ⟨S500x10, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S500x64, .f32⟩
  | .local _ .vmem, ⟨31, _⟩ => ⟨S64x64, .f32⟩
  | .local _ .vmem, ⟨32, _⟩ => ⟨S1x64, .f32⟩
  | .local _ .vmem, ⟨33, _⟩ => ⟨S64x10, .f32⟩
  | .local _ .vmem, ⟨34, _⟩ => ⟨S1x10, .f32⟩
  | .local _ .vmem, ⟨35, _⟩ => ⟨S500x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S500x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S500x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  shapeCasts_S10_S1x10 : S10.ShapeCasts S1x10
  inb_S500x64_S500x64_0_0 : ∀ a, (![0, 0] : Fin 2 → Nat) a + S500x64.size a ≤ S500x64.size a
  h_S500x64 : 0 < S500x64.numel
  shapeCasts_S500x64_S500x64 : S500x64.ShapeCasts S500x64
  broadcasts_S1x64_S500x64 : S1x64.Broadcasts S500x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  reduces_S500x10_S500 : S500x10.Reduces [1] S500
  shapeCasts_S500_S500x1 : S500.ShapeCasts S500x1
  broadcasts_S500x1_S500x10 : S500x1.Broadcasts S500x10
  inb_S500x10_S500x10_0_0 : ∀ a, (![0, 0] : Fin 2 → Nat) a + S500x10.size a ≤ S500x10.size a
  h_S500x10 : 0 < S500x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x64_S500x64_1_0_0_1_n_n_wf : DotDims.WF S500x64 S64x64 S500x64 [1] [0] [0] [1] [] []
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S500x64.size a ≤ S500x64.size a
  hwx6_0 : ∀ i : grid6.Coords, EltTy.bits .f32 = 32 ∨ (Rect.block (s := S500x64) S500x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S500x10.size a ≤ S500x10.size a
  hwx6_5 : ∀ i : grid6.Coords, EltTy.bits .f32 = 32 ∨ (Rect.block (s := S500x10) S500x10.size (cc6_transform_5 i) (hinb6_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v84) S500x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v87) S500x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S500x10 : Shape := ⟨2, ![500, 10]⟩
abbrev S1x10 : Shape := ⟨2, ![1, 10]⟩

abbrev nBuf : Space → Nat
  | .hbm => 155
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S850000x1, .f32⟩
  | 47 => ⟨S50000x64, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x64, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x64, .f32⟩
  | 79 => ⟨S850000x64, .f32⟩
  | 80 => ⟨S850000x64, .f32⟩
  | 81 => ⟨S_, .f32⟩
  | 82 => ⟨S50000x64, .f32⟩
  | 83 => ⟨S850000x1, .i32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .f32⟩
  | 101 => ⟨S850000x64, .f32⟩
  | 102 => ⟨S850000x64, .f32⟩
  | 103 => ⟨S_, .f32⟩
  | 104 => ⟨S50000x64, .f32⟩
  | 105 => ⟨S850000x1, .i32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S_, .f32⟩
  | 114 => ⟨S500x64, .f32⟩
  | 115 => ⟨S50000x1, .i32⟩
  | 116 => ⟨S500x64, .f32⟩
  | 117 => ⟨S_, .f32⟩
  | 118 => ⟨S50000, .f32⟩
  | 119 => ⟨S_, .f32⟩
  | 120 => ⟨S500, .f32⟩
  | 121 => ⟨S50000x1, .i32⟩
  | 122 => ⟨S500, .f32⟩
  | 123 => ⟨S_, .f32⟩
  | 124 => ⟨S500, .f32⟩
  | 125 => ⟨S500, .f32⟩
  | 126 => ⟨S500x1, .f32⟩
  | 127 => ⟨S500x64, .f32⟩
  | _ => ⟨S50000x64, .f32⟩

abbrev hbmTy0_1 (i : Nat) : BufTy := match i % 128 with
  | 0 => ⟨S500x64, .f32⟩
  | 1 => ⟨S500x64, .f32⟩
  | 2 => ⟨S1x64, .f32⟩
  | 3 => ⟨S500x64, .f32⟩
  | 4 => ⟨S500x64, .f32⟩
  | 5 => ⟨S_, .f32⟩
  | 6 => ⟨S500x64, .f32⟩
  | 7 => ⟨S500x64, .f32⟩
  | 8 => ⟨S500x10, .f32⟩
  | 9 => ⟨S1x10, .f32⟩
  | 10 => ⟨S500x10, .f32⟩
  | 11 => ⟨S500x10, .f32⟩
  | 12 => ⟨S_, .f32⟩
  | 13 => ⟨S500, .f32⟩
  | 14 => ⟨S_, .f32⟩
  | 15 => ⟨S500, .f32⟩
  | 16 => ⟨S500, .f32⟩
  | 17 => ⟨S500x1, .f32⟩
  | 18 => ⟨S500x10, .f32⟩
  | 19 => ⟨S500x10, .f32⟩
  | 20 => ⟨S500x10, .f32⟩
  | 21 => ⟨S_, .f32⟩
  | 22 => ⟨S500, .f32⟩
  | 23 => ⟨S500x1, .f32⟩
  | 24 => ⟨S500x1, .f32⟩
  | 25 => ⟨S500x10, .f32⟩
  | 26 => ⟨S500x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call1_cst : Ref sig .tc := ⟨.hbm, 88, rfl⟩
abbrev main_call1_v0 : Ref sig .tc := ⟨.hbm, 89, rfl⟩
abbrev main_v61 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_cst : Ref sig .tc := ⟨.hbm, 110, rfl⟩
abbrev main_call2_v0 : Ref sig .tc := ⟨.hbm, 111, rfl⟩
abbrev main_v78 : Ref sig .tc := ⟨.hbm, 112, rfl⟩
abbrev main_cst_13 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_cst : Ref sig .tc := ⟨.hbm, 140, rfl⟩
abbrev main_call4_v0 : Ref sig .tc := ⟨.hbm, 141, rfl⟩
abbrev main_call4_cst_0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_cst_1 : Ref sig .tc := ⟨.hbm, 149, rfl⟩
abbrev main_call4_v7 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_v100 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S1x64_S500x64_0_1 : S1x64.BroadcastsInDim S500x64 (![0, 1] : Fin 2 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  h_S_ : 0 < S_.numel
  bcast_S500x1_S500x10_0_1 : S500x1.BroadcastsInDim S500x10 (![0, 1] : Fin 2 → Fin S500x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x64_S500x64_1_0_0_1_n_n_wf : DotDims.WF S500x64 S64x64 S500x64 [1] [0] [0] [1] [] []
  dot_S500x64_S64x10_S500x10_1_0_0_1_n_n_wf : DotDims.WF S500x64 S64x10 S500x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.KRun.lean ====
/-
  The idealized kernel's run with its result named. @main is seven row-blocked regions among stretches of host
  operations; the generated frame folds the buffer contents through the twelve segments (`Gen.W0 … Gen.W12`) and reads
  the arguments off the last one. Here the same launch is read once more at the result buffer: every weakly fair
  execution terminates with `main_v87` holding `Gen.W12 … main_v87`, the contents the fold ends with, and the
  arguments as launched.
-/
import proofs.«136268_j11227044511897_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    fold of the segments ends with and the argument arrays as launched. -/
theorem run_result : θ_run defs (onTc (τ := τ) (main (F := F))) ⟨m, fun _ => 0, ρ⟩ (fun r => ∀ c : Dev nD,
      r.2.mem ((c.tc : Thread nD τ).loc main_v87) = W12 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.RunValue

end
-- ==== Proof.FoldArgsA.lean ====
/-
  The argument arrays through the fold of buffer contents (first part). No host operation writes an argument and no
  region writes one before the point it is read at, so at each segment boundary an argument's buffer still holds what
  it was launched with: boundary by boundary, a host stretch keeps every buffer it does not write and a region keeps
  every buffer that is not one of its arrays.
-/
import proofs.«136268_j11227044511897_1_alg».proof.Proof.Gen.KernelIdeal.Frame
import proofs.«136268_j11227044511897_1_alg».proof.Proof.Gen.ReferenceIdeal.Read
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

theorem w1_arg0 (c : Dev nD) : W1 m ρ c (Proc.devRef .tc main_arg0) = (m ((c : Thread nD τ).loc main_arg0)) := by
  dsimp only [W1, hostOps0]
  after_results_simp <;> rfl

theorem w1_arg3 (c : Dev nD) : W1 m ρ c (Proc.devRef .tc main_arg3) = (m ((c : Thread nD τ).loc main_arg3)) := by
  dsimp only [W1, hostOps0]
  after_results_simp <;> rfl

theorem w1_arg4 (c : Dev nD) : W1 m ρ c (Proc.devRef .tc main_arg4) = (m ((c : Thread nD τ).loc main_arg4)) := by
  dsimp only [W1, hostOps0]
  after_results_simp <;> rfl
theorem w2_arg4 (c : Dev nD) : W2 m ρ c (Proc.devRef .tc main_arg4) = (m ((c : Thread nD τ).loc main_arg4)) :=
  (W2_of_ne m ρ c main_arg4 (by decide)).trans (w1_arg4 m ρ c)

theorem w1_arg5 (c : Dev nD) : W1 m ρ c (Proc.devRef .tc main_arg5) = (m ((c : Thread nD τ).loc main_arg5)) := by
  dsimp only [W1, hostOps0]
  after_results_simp <;> rfl
theorem w2_arg5 (c : Dev nD) : W2 m ρ c (Proc.devRef .tc main_arg5) = (m ((c : Thread nD τ).loc main_arg5)) :=
  (W2_of_ne m ρ c main_arg5 (by decide)).trans (w1_arg5 m ρ c)
theorem w3_arg5 (c : Dev nD) : W3 m ρ c (Proc.devRef .tc main_arg5) = (m ((c : Thread nD τ).loc main_arg5)) :=
  (show W3 m ρ c (Proc.devRef .tc main_arg5) = W2 m ρ c (Proc.devRef .tc main_arg5) from by
    dsimp only [W3, hostOps1]
    after_results_simp <;> rfl).trans (w2_arg5 m ρ c)
theorem w4_arg5 (c : Dev nD) : W4 m ρ c (Proc.devRef .tc main_arg5) = (m ((c : Thread nD τ).loc main_arg5)) :=
  (W4_of_ne m ρ c main_arg5 (by decide)).trans (w3_arg5 m ρ c)

theorem w1_arg6 (c : Dev nD) : W1 m ρ c (Proc.devRef .tc main_arg6) = (m ((c : Thread nD τ).loc main_arg6)) := by
  dsimp only [W1, hostOps0]
  after_results_simp <;> rfl
theorem w2_arg6 (c : Dev nD) : W2 m ρ c (Proc.devRef .tc main_arg6) = (m ((c : Thread nD τ).loc main_arg6)) :=
  (W2_of_ne m ρ c main_arg6 (by decide)).trans (w1_arg6 m ρ c)
theorem w3_arg6 (c : Dev nD) : W3 m ρ c (Proc.devRef .tc main_arg6) = (m ((c : Thread nD τ).loc main_arg6)) :=
  (show W3 m ρ c (Proc.devRef .tc main_arg6) = W2 m ρ c (Proc.devRef .tc main_arg6) from by
    dsimp only [W3, hostOps1]
    after_results_simp <;> rfl).trans (w2_arg6 m ρ c)
theorem w4_arg6 (c : Dev nD) : W4 m ρ c (Proc.devRef .tc main_arg6) = (m ((c : Thread nD τ).loc main_arg6)) :=
  (W4_of_ne m ρ c main_arg6 (by decide)).trans (w3_arg6 m ρ c)
theorem w5_arg6 (c : Dev nD) : W5 m ρ c (Proc.devRef .tc main_arg6) = (m ((c : Thread nD τ).loc main_arg6)) :=
  (W5_of_ne m ρ c main_arg6 (by decide)).trans (w4_arg6 m ρ c)

theorem w1_arg7 (c : Dev nD) : W1 m ρ c (Proc.devRef .tc main_arg7) = (m ((c : Thread nD τ).loc main_arg7)) := by
  dsimp only [W1, hostOps0]
  after_results_simp <;> rfl
theorem w2_arg7 (c : Dev nD) : W2 m ρ c (Proc.devRef .tc main_arg7) = (m ((c : Thread nD τ).loc main_arg7)) :=
  (W2_of_ne m ρ c main_arg7 (by decide)).trans (w1_arg7 m ρ c)
theorem w3_arg7 (c : Dev nD) : W3 m ρ c (Proc.devRef .tc main_arg7) = (m ((c : Thread nD τ).loc main_arg7)) :=
  (show W3 m ρ c (Proc.devRef .tc main_arg7) = W2 m ρ c (Proc.devRef .tc main_arg7) from by
    dsimp only [W3, hostOps1]
    after_results_simp <;> rfl).trans (w2_arg7 m ρ c)
theorem w4_arg7 (c : Dev nD) : W4 m ρ c (Proc.devRef .tc main_arg7) = (m ((c : Thread nD τ).loc main_arg7)) :=
  (W4_of_ne m ρ c main_arg7 (by decide)).trans (w3_arg7 m ρ c)
theorem w5_arg7 (c : Dev nD) : W5 m ρ c (Proc.devRef .tc main_arg7) = (m ((c : Thread nD τ).loc main_arg7)) :=
  (W5_of_ne m ρ c main_arg7 (by decide)).trans (w4_arg7 m ρ c)
theorem w6_arg7 (c : Dev nD) : W6 m ρ c (Proc.devRef .tc main_arg7) = (m ((c : Thread nD τ).loc main_arg7)) :=
  (show W6 m ρ c (Proc.devRef .tc main_arg7) = W5 m ρ c (Proc.devRef .tc main_arg7) from by
    dsimp only [W6, hostOps3]
    after_results_simp <;> rfl).trans (w5_arg7 m ρ c)
theorem w7_arg7 (c : Dev nD) : W7 m ρ c (Proc.devRef .tc main_arg7) = (m ((c : Thread nD τ).loc main_arg7)) :=
  (W7_of_ne m ρ c main_arg7 (by decide)).trans (w6_arg7 m ρ c)

theorem w1_arg8 (c : Dev nD) : W1 m ρ c (Proc.devRef .tc main_arg8) = (m ((c : Thread nD τ).loc main_arg8)) := by
  dsimp only [W1, hostOps0]
  after_results_simp <;> rfl
theorem w2_arg8 (c : Dev nD) : W2 m ρ c (Proc.devRef .tc main_arg8) = (m ((c : Thread nD τ).loc main_arg8)) :=
  (W2_of_ne m ρ c main_arg8 (by decide)).trans (w1_arg8 m ρ c)
theorem w3_arg8 (c : Dev nD) : W3 m ρ c (Proc.devRef .tc main_arg8) = (m ((c : Thread nD τ).loc main_arg8)) :=
  (show W3 m ρ c (Proc.devRef .tc main_arg8) = W2 m ρ c (Proc.devRef .tc main_arg8) from by
    dsimp only [W3, hostOps1]
    after_results_simp <;> rfl).trans (w2_arg8 m ρ c)
theorem w4_arg8 (c : Dev nD) : W4 m ρ c (Proc.devRef .tc main_arg8) = (m ((c : Thread nD τ).loc main_arg8)) :=
  (W4_of_ne m ρ c main_arg8 (by decide)).trans (w3_arg8 m ρ c)
theorem w5_arg8 (c : Dev nD) : W5 m ρ c (Proc.devRef .tc main_arg8) = (m ((c : Thread nD τ).loc main_arg8)) :=
  (W5_of_ne m ρ c main_arg8 (by decide)).trans (w4_arg8 m ρ c)
theorem w6_arg8 (c : Dev nD) : W6 m ρ c (Proc.devRef .tc main_arg8) = (m ((c : Thread nD τ).loc main_arg8)) :=
  (show W6 m ρ c (Proc.devRef .tc main_arg8) = W5 m ρ c (Proc.devRef .tc main_arg8) from by
    dsimp only [W6, hostOps3]
    after_results_simp <;> rfl).trans (w5_arg8 m ρ c)
theorem w7_arg8 (c : Dev nD) : W7 m ρ c (Proc.devRef .tc main_arg8) = (m ((c : Thread nD τ).loc main_arg8)) :=
  (W7_of_ne m ρ c main_arg8 (by decide)).trans (w6_arg8 m ρ c)
theorem w8_arg8 (c : Dev nD) : W8 m ρ c (Proc.devRef .tc main_arg8) = (m ((c : Thread nD τ).loc main_arg8)) :=
  (W8_of_ne m ρ c main_arg8 (by decide)).trans (w7_arg8 m ρ c)

end Cert.KernelIdeal.Fold

end
-- ==== Proof.FoldArgsB.lean ====
/-
  The argument arrays through the fold of buffer contents (second part): the graph-assignment vector and the head's
  weights and biases, read only by the last host stretch and the last region, still hold their launch contents at
  every earlier boundary.
-/
import proofs.«136268_j11227044511897_1_alg».proof.Proof.Gen.KernelIdeal.Frame
import proofs.«136268_j11227044511897_1_alg».proof.Proof.Gen.ReferenceIdeal.Read
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

theorem w1_arg2 (c : Dev nD) : W1 m ρ c (Proc.devRef .tc main_arg2) = (m ((c : Thread nD τ).loc main_arg2)) := by
  dsimp only [W1, hostOps0]
  after_results_simp <;> rfl
theorem w2_arg2 (c : Dev nD) : W2 m ρ c (Proc.devRef .tc main_arg2) = (m ((c : Thread nD τ).loc main_arg2)) :=
  (W2_of_ne m ρ c main_arg2 (by decide)).trans (w1_arg2 m ρ c)
theorem w3_arg2 (c : Dev nD) : W3 m ρ c (Proc.devRef .tc main_arg2) = (m ((c : Thread nD τ).loc main_arg2)) :=
  (show W3 m ρ c (Proc.devRef .tc main_arg2) = W2 m ρ c (Proc.devRef .tc main_arg2) from by
    dsimp only [W3, hostOps1]
    after_results_simp <;> rfl).trans (w2_arg2 m ρ c)
theorem w4_arg2 (c : Dev nD) : W4 m ρ c (Proc.devRef .tc main_arg2) = (m ((c : Thread nD τ).loc main_arg2)) :=
  (W4_of_ne m ρ c main_arg2 (by decide)).trans (w3_arg2 m ρ c)
theorem w5_arg2 (c : Dev nD) : W5 m ρ c (Proc.devRef .tc main_arg2) = (m ((c : Thread nD τ).loc main_arg2)) :=
  (W5_of_ne m ρ c main_arg2 (by decide)).trans (w4_arg2 m ρ c)
theorem w6_arg2 (c : Dev nD) : W6 m ρ c (Proc.devRef .tc main_arg2) = (m ((c : Thread nD τ).loc main_arg2)) :=
  (show W6 m ρ c (Proc.devRef .tc main_arg2) = W5 m ρ c (Proc.devRef .tc main_arg2) from by
    dsimp only [W6, hostOps3]
    after_results_simp <;> rfl).trans (w5_arg2 m ρ c)
theorem w7_arg2 (c : Dev nD) : W7 m ρ c (Proc.devRef .tc main_arg2) = (m ((c : Thread nD τ).loc main_arg2)) :=
  (W7_of_ne m ρ c main_arg2 (by decide)).trans (w6_arg2 m ρ c)
theorem w8_arg2 (c : Dev nD) : W8 m ρ c (Proc.devRef .tc main_arg2) = (m ((c : Thread nD τ).loc main_arg2)) :=
  (W8_of_ne m ρ c main_arg2 (by decide)).trans (w7_arg2 m ρ c)
theorem w9_arg2 (c : Dev nD) : W9 m ρ c (Proc.devRef .tc main_arg2) = (m ((c : Thread nD τ).loc main_arg2)) :=
  (show W9 m ρ c (Proc.devRef .tc main_arg2) = W8 m ρ c (Proc.devRef .tc main_arg2) from by
    dsimp only [W9, hostOps5]
    after_results_simp <;> rfl).trans (w8_arg2 m ρ c)
theorem w10_arg2 (c : Dev nD) : W10 m ρ c (Proc.devRef .tc main_arg2) = (m ((c : Thread nD τ).loc main_arg2)) :=
  (W10_of_ne m ρ c main_arg2 (by decide)).trans (w9_arg2 m ρ c)

theorem w1_arg10 (c : Dev nD) : W1 m ρ c (Proc.devRef .tc main_arg10) = (m ((c : Thread nD τ).loc main_arg10)) := by
  dsimp only [W1, hostOps0]
  after_results_simp <;> rfl
theorem w2_arg10 (c : Dev nD) : W2 m ρ c (Proc.devRef .tc main_arg10) = (m ((c : Thread nD τ).loc main_arg10)) :=
  (W2_of_ne m ρ c main_arg10 (by decide)).trans (w1_arg10 m ρ c)
theorem w3_arg10 (c : Dev nD) : W3 m ρ c (Proc.devRef .tc main_arg10) = (m ((c : Thread nD τ).loc main_arg10)) :=
  (show W3 m ρ c (Proc.devRef .tc main_arg10) = W2 m ρ c (Proc.devRef .tc main_arg10) from by
    dsimp only [W3, hostOps1]
    after_results_simp <;> rfl).trans (w2_arg10 m ρ c)
theorem w4_arg10 (c : Dev nD) : W4 m ρ c (Proc.devRef .tc main_arg10) = (m ((c : Thread nD τ).loc main_arg10)) :=
  (W4_of_ne m ρ c main_arg10 (by decide)).trans (w3_arg10 m ρ c)
theorem w5_arg10 (c : Dev nD) : W5 m ρ c (Proc.devRef .tc main_arg10) = (m ((c : Thread nD τ).loc main_arg10)) :=
  (W5_of_ne m ρ c main_arg10 (by decide)).trans (w4_arg10 m ρ c)
theorem w6_arg10 (c : Dev nD) : W6 m ρ c (Proc.devRef .tc main_arg10) = (m ((c : Thread nD τ).loc main_arg10)) :=
  (show W6 m ρ c (Proc.devRef .tc main_arg10) = W5 m ρ c (Proc.devRef .tc main_arg10) from by
    dsimp only [W6, hostOps3]
    after_results_simp <;> rfl).trans (w5_arg10 m ρ c)
theorem w7_arg10 (c : Dev nD) : W7 m ρ c (Proc.devRef .tc main_arg10) = (m ((c : Thread nD τ).loc main_arg10)) :=
  (W7_of_ne m ρ c main_arg10 (by decide)).trans (w6_arg10 m ρ c)
theorem w8_arg10 (c : Dev nD) : W8 m ρ c (Proc.devRef .tc main_arg10) = (m ((c : Thread nD τ).loc main_arg10)) :=
  (W8_of_ne m ρ c main_arg10 (by decide)).trans (w7_arg10 m ρ c)
theorem w9_arg10 (c : Dev nD) : W9 m ρ c (Proc.devRef .tc main_arg10) = (m ((c : Thread nD τ).loc main_arg10)) :=
  (show W9 m ρ c (Proc.devRef .tc main_arg10) = W8 m ρ c (Proc.devRef .tc main_arg10) from by
    dsimp only [W9, hostOps5]
    after_results_simp <;> rfl).trans (w8_arg10 m ρ c)
theorem w10_arg10 (c : Dev nD) : W10 m ρ c (Proc.devRef .tc main_arg10) = (m ((c : Thread nD τ).loc main_arg10)) :=
  (W10_of_ne m ρ c main_arg10 (by decide)).trans (w9_arg10 m ρ c)

theorem w1_arg12 (c : Dev nD) : W1 m ρ c (Proc.devRef .tc main_arg12) = (m ((c : Thread nD τ).loc main_arg12)) := by
  dsimp only [W1, hostOps0]
  after_results_simp <;> rfl
theorem w2_arg12 (c : Dev nD) : W2 m ρ c (Proc.devRef .tc main_arg12) = (m ((c : Thread nD τ).loc main_arg12)) :=
  (W2_of_ne m ρ c main_arg12 (by decide)).trans (w1_arg12 m ρ c)
theorem w3_arg12 (c : Dev nD) : W3 m ρ c (Proc.devRef .tc main_arg12) = (m ((c : Thread nD τ).loc main_arg12)) :=
  (show W3 m ρ c (Proc.devRef .tc main_arg12) = W2 m ρ c (Proc.devRef .tc main_arg12) from by
    dsimp only [W3, hostOps1]
    after_results_simp <;> rfl).trans (w2_arg12 m ρ c)
theorem w4_arg12 (c : Dev nD) : W4 m ρ c (Proc.devRef .tc main_arg12) = (m ((c : Thread nD τ).loc main_arg12)) :=
  (W4_of_ne m ρ c main_arg12 (by decide)).trans (w3_arg12 m ρ c)
theorem w5_arg12 (c : Dev nD) : W5 m ρ c (Proc.devRef .tc main_arg12) = (m ((c : Thread nD τ).loc main_arg12)) :=
  (W5_of_ne m ρ c main_arg12 (by decide)).trans (w4_arg12 m ρ c)
theorem w6_arg12 (c : Dev nD) : W6 m ρ c (Proc.devRef .tc main_arg12) = (m ((c : Thread nD τ).loc main_arg12)) :=
  (show W6 m ρ c (Proc.devRef .tc main_arg12) = W5 m ρ c (Proc.devRef .tc main_arg12) from by
    dsimp only [W6, hostOps3]
    after_results_simp <;> rfl).trans (w5_arg12 m ρ c)
theorem w7_arg12 (c : Dev nD) : W7 m ρ c (Proc.devRef .tc main_arg12) = (m ((c : Thread nD τ).loc main_arg12)) :=
  (W7_of_ne m ρ c main_arg12 (by decide)).trans (w6_arg12 m ρ c)
theorem w8_arg12 (c : Dev nD) : W8 m ρ c (Proc.devRef .tc main_arg12) = (m ((c : Thread nD τ).loc main_arg12)) :=
  (W8_of_ne m ρ c main_arg12 (by decide)).trans (w7_arg12 m ρ c)
theorem w9_arg12 (c : Dev nD) : W9 m ρ c (Proc.devRef .tc main_arg12) = (m ((c : Thread nD τ).loc main_arg12)) :=
  (show W9 m ρ c (Proc.devRef .tc main_arg12) = W8 m ρ c (Proc.devRef .tc main_arg12) from by
    dsimp only [W9, hostOps5]
    after_results_simp <;> rfl).trans (w8_arg12 m ρ c)
theorem w10_arg12 (c : Dev nD) : W10 m ρ c (Proc.devRef .tc main_arg12) = (m ((c : Thread nD τ).loc main_arg12)) :=
  (W10_of_ne m ρ c main_arg12 (by decide)).trans (w9_arg12 m ρ c)

theorem w1_arg9 (c : Dev nD) : W1 m ρ c (Proc.devRef .tc main_arg9) = (m ((c : Thread nD τ).loc main_arg9)) := by
  dsimp only [W1, hostOps0]
  after_results_simp <;> rfl
theorem w2_arg9 (c : Dev nD) : W2 m ρ c (Proc.devRef .tc main_arg9) = (m ((c : Thread nD τ).loc main_arg9)) :=
  (W2_of_ne m ρ c main_arg9 (by decide)).trans (w1_arg9 m ρ c)
theorem w3_arg9 (c : Dev nD) : W3 m ρ c (Proc.devRef .tc main_arg9) = (m ((c : Thread nD τ).loc main_arg9)) :=
  (show W3 m ρ c (Proc.devRef .tc main_arg9) = W2 m ρ c (Proc.devRef .tc main_arg9) from by
    dsimp only [W3, hostOps1]
    after_results_simp <;> rfl).trans (w2_arg9 m ρ c)
theorem w4_arg9 (c : Dev nD) : W4 m ρ c (Proc.devRef .tc main_arg9) = (m ((c : Thread nD τ).loc main_arg9)) :=
  (W4_of_ne m ρ c main_arg9 (by decide)).trans (w3_arg9 m ρ c)
theorem w5_arg9 (c : Dev nD) : W5 m ρ c (Proc.devRef .tc main_arg9) = (m ((c : Thread nD τ).loc main_arg9)) :=
  (W5_of_ne m ρ c main_arg9 (by decide)).trans (w4_arg9 m ρ c)
theorem w6_arg9 (c : Dev nD) : W6 m ρ c (Proc.devRef .tc main_arg9) = (m ((c : Thread nD τ).loc main_arg9)) :=
  (show W6 m ρ c (Proc.devRef .tc main_arg9) = W5 m ρ c (Proc.devRef .tc main_arg9) from by
    dsimp only [W6, hostOps3]
    after_results_simp <;> rfl).trans (w5_arg9 m ρ c)
theorem w7_arg9 (c : Dev nD) : W7 m ρ c (Proc.devRef .tc main_arg9) = (m ((c : Thread nD τ).loc main_arg9)) :=
  (W7_of_ne m ρ c main_arg9 (by decide)).trans (w6_arg9 m ρ c)
theorem w8_arg9 (c : Dev nD) : W8 m ρ c (Proc.devRef .tc main_arg9) = (m ((c : Thread nD τ).loc main_arg9)) :=
  (W8_of_ne m ρ c main_arg9 (by decide)).trans (w7_arg9 m ρ c)
theorem w9_arg9 (c : Dev nD) : W9 m ρ c (Proc.devRef .tc main_arg9) = (m ((c : Thread nD τ).loc main_arg9)) :=
  (show W9 m ρ c (Proc.devRef .tc main_arg9) = W8 m ρ c (Proc.devRef .tc main_arg9) from by
    dsimp only [W9, hostOps5]
    after_results_simp <;> rfl).trans (w8_arg9 m ρ c)
theorem w10_arg9 (c : Dev nD) : W10 m ρ c (Proc.devRef .tc main_arg9) = (m ((c : Thread nD τ).loc main_arg9)) :=
  (W10_of_ne m ρ c main_arg9 (by decide)).trans (w9_arg9 m ρ c)
theorem w11_arg9 (c : Dev nD) : W11 m ρ c (Proc.devRef .tc main_arg9) = (m ((c : Thread nD τ).loc main_arg9)) :=
  (show W11 m ρ c (Proc.devRef .tc main_arg9) = W10 m ρ c (Proc.devRef .tc main_arg9) from by
    dsimp only [W11, hostOps6]
    after_results_simp <;> rfl).trans (w10_arg9 m ρ c)

theorem w1_arg11 (c : Dev nD) : W1 m ρ c (Proc.devRef .tc main_arg11) = (m ((c : Thread nD τ).loc main_arg11)) := by
  dsimp only [W1, hostOps0]
  after_results_simp <;> rfl
theorem w2_arg11 (c : Dev nD) : W2 m ρ c (Proc.devRef .tc main_arg11) = (m ((c : Thread nD τ).loc main_arg11)) :=
  (W2_of_ne m ρ c main_arg11 (by decide)).trans (w1_arg11 m ρ c)
theorem w3_arg11 (c : Dev nD) : W3 m ρ c (Proc.devRef .tc main_arg11) = (m ((c : Thread nD τ).loc main_arg11)) :=
  (show W3 m ρ c (Proc.devRef .tc main_arg11) = W2 m ρ c (Proc.devRef .tc main_arg11) from by
    dsimp only [W3, hostOps1]
    after_results_simp <;> rfl).trans (w2_arg11 m ρ c)
theorem w4_arg11 (c : Dev nD) : W4 m ρ c (Proc.devRef .tc main_arg11) = (m ((c : Thread nD τ).loc main_arg11)) :=
  (W4_of_ne m ρ c main_arg11 (by decide)).trans (w3_arg11 m ρ c)
theorem w5_arg11 (c : Dev nD) : W5 m ρ c (Proc.devRef .tc main_arg11) = (m ((c : Thread nD τ).loc main_arg11)) :=
  (W5_of_ne m ρ c main_arg11 (by decide)).trans (w4_arg11 m ρ c)
theorem w6_arg11 (c : Dev nD) : W6 m ρ c (Proc.devRef .tc main_arg11) = (m ((c : Thread nD τ).loc main_arg11)) :=
  (show W6 m ρ c (Proc.devRef .tc main_arg11) = W5 m ρ c (Proc.devRef .tc main_arg11) from by
    dsimp only [W6, hostOps3]
    after_results_simp <;> rfl).trans (w5_arg11 m ρ c)
theorem w7_arg11 (c : Dev nD) : W7 m ρ c (Proc.devRef .tc main_arg11) = (m ((c : Thread nD τ).loc main_arg11)) :=
  (W7_of_ne m ρ c main_arg11 (by decide)).trans (w6_arg11 m ρ c)
theorem w8_arg11 (c : Dev nD) : W8 m ρ c (Proc.devRef .tc main_arg11) = (m ((c : Thread nD τ).loc main_arg11)) :=
  (W8_of_ne m ρ c main_arg11 (by decide)).trans (w7_arg11 m ρ c)
theorem w9_arg11 (c : Dev nD) : W9 m ρ c (Proc.devRef .tc main_arg11) = (m ((c : Thread nD τ).loc main_arg11)) :=
  (show W9 m ρ c (Proc.devRef .tc main_arg11) = W8 m ρ c (Proc.devRef .tc main_arg11) from by
    dsimp only [W9, hostOps5]
    after_results_simp <;> rfl).trans (w8_arg11 m ρ c)
theorem w10_arg11 (c : Dev nD) : W10 m ρ c (Proc.devRef .tc main_arg11) = (m ((c : Thread nD τ).loc main_arg11)) :=
  (W10_of_ne m ρ c main_arg11 (by decide)).trans (w9_arg11 m ρ c)
theorem w11_arg11 (c : Dev nD) : W11 m ρ c (Proc.devRef .tc main_arg11) = (m ((c : Thread nD τ).loc main_arg11)) :=
  (show W11 m ρ c (Proc.devRef .tc main_arg11) = W10 m ρ c (Proc.devRef .tc main_arg11) from by
    dsimp only [W11, hostOps6]
    after_results_simp <;> rfl).trans (w10_arg11 m ρ c)

end Cert.KernelIdeal.Fold

end
-- ==== Proof.FoldIdx.lean ====
/-
  The message sources, the aggregation targets and the normalisation column through the fold of buffer contents. The
  first host stretch computes them from the edge list exactly as the reference does — the same operations in the same
  order — so they are the reference's stages of the edge list; every later segment up to the third aggregation leaves
  them in place.
-/
import proofs.«136268_j11227044511897_1_alg».proof.Proof.Gen.KernelIdeal.Frame
import proofs.«136268_j11227044511897_1_alg».proof.Proof.Gen.ReferenceIdeal.Read
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

theorem w1_v3 (c : Dev nD) : W1 m ρ c (Proc.devRef .tc main_v3) = (Cert.ReferenceIdeal.Read.val_main_v3 (F := Ideal) (m ((c : Thread nD τ).loc main_arg1))) := by
  dsimp only [W1, hostOps0]
  after_results_simp <;> rfl
theorem w2_v3 (c : Dev nD) : W2 m ρ c (Proc.devRef .tc main_v3) = (Cert.ReferenceIdeal.Read.val_main_v3 (F := Ideal) (m ((c : Thread nD τ).loc main_arg1))) :=
  (W2_of_ne m ρ c main_v3 (by decide)).trans (w1_v3 m ρ c)
theorem w3_v3 (c : Dev nD) : W3 m ρ c (Proc.devRef .tc main_v3) = (Cert.ReferenceIdeal.Read.val_main_v3 (F := Ideal) (m ((c : Thread nD τ).loc main_arg1))) :=
  (show W3 m ρ c (Proc.devRef .tc main_v3) = W2 m ρ c (Proc.devRef .tc main_v3) from by
    dsimp only [W3, hostOps1]
    after_results_simp <;> rfl).trans (w2_v3 m ρ c)
theorem w4_v3 (c : Dev nD) : W4 m ρ c (Proc.devRef .tc main_v3) = (Cert.ReferenceIdeal.Read.val_main_v3 (F := Ideal) (m ((c : Thread nD τ).loc main_arg1))) :=
  (W4_of_ne m ρ c main_v3 (by decide)).trans (w3_v3 m ρ c)
theorem w5_v3 (c : Dev nD) : W5 m ρ c (Proc.devRef .tc main_v3) = (Cert.ReferenceIdeal.Read.val_main_v3 (F := Ideal) (m ((c : Thread nD τ).loc main_arg1))) :=
  (W5_of_ne m ρ c main_v3 (by decide)).trans (w4_v3 m ρ c)
theorem w6_v3 (c : Dev nD) : W6 m ρ c (Proc.devRef .tc main_v3) = (Cert.ReferenceIdeal.Read.val_main_v3 (F := Ideal) (m ((c : Thread nD τ).loc main_arg1))) :=
  (show W6 m ρ c (Proc.devRef .tc main_v3) = W5 m ρ c (Proc.devRef .tc main_v3) from by
    dsimp only [W6, hostOps3]
    after_results_simp <;> rfl).trans (w5_v3 m ρ c)
theorem w7_v3 (c : Dev nD) : W7 m ρ c (Proc.devRef .tc main_v3) = (Cert.ReferenceIdeal.Read.val_main_v3 (F := Ideal) (m ((c : Thread nD τ).loc main_arg1))) :=
  (W7_of_ne m ρ c main_v3 (by decide)).trans (w6_v3 m ρ c)
theorem w8_v3 (c : Dev nD) : W8 m ρ c (Proc.devRef .tc main_v3) = (Cert.ReferenceIdeal.Read.val_main_v3 (F := Ideal) (m ((c : Thread nD τ).loc main_arg1))) :=
  (W8_of_ne m ρ c main_v3 (by decide)).trans (w7_v3 m ρ c)

theorem w1_v6 (c : Dev nD) : W1 m ρ c (Proc.devRef .tc main_v6) = (Cert.ReferenceIdeal.Read.val_main_v6 (F := Ideal) (m ((c : Thread nD τ).loc main_arg1))) := by
  dsimp only [W1, hostOps0]
  after_results_simp <;> rfl
theorem w2_v6 (c : Dev nD) : W2 m ρ c (Proc.devRef .tc main_v6) = (Cert.ReferenceIdeal.Read.val_main_v6 (F := Ideal) (m ((c : Thread nD τ).loc main_arg1))) :=
  (W2_of_ne m ρ c main_v6 (by decide)).trans (w1_v6 m ρ c)
theorem w3_v6 (c : Dev nD) : W3 m ρ c (Proc.devRef .tc main_v6) = (Cert.ReferenceIdeal.Read.val_main_v6 (F := Ideal) (m ((c : Thread nD τ).loc main_arg1))) :=
  (show W3 m ρ c (Proc.devRef .tc main_v6) = W2 m ρ c (Proc.devRef .tc main_v6) from by
    dsimp only [W3, hostOps1]
    after_results_simp <;> rfl).trans (w2_v6 m ρ c)
theorem w4_v6 (c : Dev nD) : W4 m ρ c (Proc.devRef .tc main_v6) = (Cert.ReferenceIdeal.Read.val_main_v6 (F := Ideal) (m ((c : Thread nD τ).loc main_arg1))) :=
  (W4_of_ne m ρ c main_v6 (by decide)).trans (w3_v6 m ρ c)
theorem w5_v6 (c : Dev nD) : W5 m ρ c (Proc.devRef .tc main_v6) = (Cert.ReferenceIdeal.Read.val_main_v6 (F := Ideal) (m ((c : Thread nD τ).loc main_arg1))) :=
  (W5_of_ne m ρ c main_v6 (by decide)).trans (w4_v6 m ρ c)
theorem w6_v6 (c : Dev nD) : W6 m ρ c (Proc.devRef .tc main_v6) = (Cert.ReferenceIdeal.Read.val_main_v6 (F := Ideal) (m ((c : Thread nD τ).loc main_arg1))) :=
  (show W6 m ρ c (Proc.devRef .tc main_v6) = W5 m ρ c (Proc.devRef .tc main_v6) from by
    dsimp only [W6, hostOps3]
    after_results_simp <;> rfl).trans (w5_v6 m ρ c)
theorem w7_v6 (c : Dev nD) : W7 m ρ c (Proc.devRef .tc main_v6) = (Cert.ReferenceIdeal.Read.val_main_v6 (F := Ideal) (m ((c : Thread nD τ).loc main_arg1))) :=
  (W7_of_ne m ρ c main_v6 (by decide)).trans (w6_v6 m ρ c)
theorem w8_v6 (c : Dev nD) : W8 m ρ c (Proc.devRef .tc main_v6) = (Cert.ReferenceIdeal.Read.val_main_v6 (F := Ideal) (m ((c : Thread nD τ).loc main_arg1))) :=
  (W8_of_ne m ρ c main_v6 (by decide)).trans (w7_v6 m ρ c)

theorem w1_v27 (c : Dev nD) : W1 m ρ c (Proc.devRef .tc main_v27) = (Cert.ReferenceIdeal.Read.val_main_v27 (F := Ideal) (m ((c : Thread nD τ).loc main_arg1))) := by
  dsimp only [W1, hostOps0]
  after_results_simp <;> rfl
theorem w2_v27 (c : Dev nD) : W2 m ρ c (Proc.devRef .tc main_v27) = (Cert.ReferenceIdeal.Read.val_main_v27 (F := Ideal) (m ((c : Thread nD τ).loc main_arg1))) :=
  (W2_of_ne m ρ c main_v27 (by decide)).trans (w1_v27 m ρ c)
theorem w3_v27 (c : Dev nD) : W3 m ρ c (Proc.devRef .tc main_v27) = (Cert.ReferenceIdeal.Read.val_main_v27 (F := Ideal) (m ((c : Thread nD τ).loc main_arg1))) :=
  (show W3 m ρ c (Proc.devRef .tc main_v27) = W2 m ρ c (Proc.devRef .tc main_v27) from by
    dsimp only [W3, hostOps1]
    after_results_simp <;> rfl).trans (w2_v27 m ρ c)
theorem w4_v27 (c : Dev nD) : W4 m ρ c (Proc.devRef .tc main_v27) = (Cert.ReferenceIdeal.Read.val_main_v27 (F := Ideal) (m ((c : Thread nD τ).loc main_arg1))) :=
  (W4_of_ne m ρ c main_v27 (by decide)).trans (w3_v27 m ρ c)
theorem w5_v27 (c : Dev nD) : W5 m ρ c (Proc.devRef .tc main_v27) = (Cert.ReferenceIdeal.Read.val_main_v27 (F := Ideal) (m ((c : Thread nD τ).loc main_arg1))) :=
  (W5_of_ne m ρ c main_v27 (by decide)).trans (w4_v27 m ρ c)
theorem w6_v27 (c : Dev nD) : W6 m ρ c (Proc.devRef .tc main_v27) = (Cert.ReferenceIdeal.Read.val_main_v27 (F := Ideal) (m ((c : Thread nD τ).loc main_arg1))) :=
  (show W6 m ρ c (Proc.devRef .tc main_v27) = W5 m ρ c (Proc.devRef .tc main_v27) from by
    dsimp only [W6, hostOps3]
    after_results_simp <;> rfl).trans (w5_v27 m ρ c)
theorem w7_v27 (c : Dev nD) : W7 m ρ c (Proc.devRef .tc main_v27) = (Cert.ReferenceIdeal.Read.val_main_v27 (F := Ideal) (m ((c : Thread nD τ).loc main_arg1))) :=
  (W7_of_ne m ρ c main_v27 (by decide)).trans (w6_v27 m ρ c)
theorem w8_v27 (c : Dev nD) : W8 m ρ c (Proc.devRef .tc main_v27) = (Cert.ReferenceIdeal.Read.val_main_v27 (F := Ideal) (m ((c : Thread nD τ).loc main_arg1))) :=
  (W8_of_ne m ρ c main_v27 (by decide)).trans (w7_v27 m ρ c)

end Cert.KernelIdeal.Fold

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.Bodies.lean ====
/-
  The two row-blocked bodies read at an index, at the extended reals.

  A projection block: the body loads a block X of 10000 rows and the whole 64 x 64 weight W, changes both to a
  narrower float format (the identity on extended reals) and multiplies them into a zero accumulator; entry (p, q) of
  what it stores is the plain sum over k of X(p, k) * W(k, q).

  A bias block: the body adds the bias row to every row of its block and takes the maximum with zero; entry (p, q)
  is max (X(p, q) + b(0, q)) 0.
-/
import proofs.«136268_j11227044511897_1_alg».proof.Proof.Gen.KernelIdeal.Skeleton
import proofs.«136268_j11227044511897_1_alg».proof.Proof.LibDotSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-- The left operand's row coordinate is the output's row. -/
theorem lhs_row (j : S10000x64.Idx) (z : dot_S10000x64_S64x64_S10000x64_1_0_0_1_n_n.contr.Idx) :
    (dot_S10000x64_S64x64_S10000x64_1_0_0_1_n_n.lhsIdx j z 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- The right operand's column coordinate is the output's column. -/
theorem rhs_col (j : S10000x64.Idx) (z : dot_S10000x64_S64x64_S10000x64_1_0_0_1_n_n.contr.Idx) :
    (dot_S10000x64_S64x64_S10000x64_1_0_0_1_n_n.rhsIdx j z 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product's left operand index at output (p, q) and contracted coordinate k is (p, k). -/
theorem lhs_idx (p : Fin 10000) (q : Fin 64) (k : Fin 64) :
    dot_S10000x64_S64x64_S10000x64_1_0_0_1_n_n.lhsIdx (ix2 p q) ((contrEquiv1 dot_S10000x64_S64x64_S10000x64_1_0_0_1_n_n 64 rfl rfl).symm k) = ix2 p k :=
  funext fun a => Fin.ext (by
    match a with
    | ⟨0, _⟩ => exact lhs_row _ _
    | ⟨1, _⟩ => exact LibDotSum.lhs_contr_val dot_S10000x64_S64x64_S10000x64_1_0_0_1_n_n 64 rfl rfl (cl := (1 : Fin S10000x64.rank)) rfl (ix2 p q) k)

/-- The right operand index there is (k, q). -/
theorem rhs_idx (p : Fin 10000) (q : Fin 64) (k : Fin 64) :
    dot_S10000x64_S64x64_S10000x64_1_0_0_1_n_n.rhsIdx (ix2 p q) ((contrEquiv1 dot_S10000x64_S64x64_S10000x64_1_0_0_1_n_n 64 rfl rfl).symm k) = ix2 k q :=
  funext fun a => Fin.ext (by
    match a with
    | ⟨0, _⟩ => exact LibDotSum.rhs_contr_val dot_S10000x64_S64x64_S10000x64_1_0_0_1_n_n 64 rfl rfl (cr := (0 : Fin S64x64.rank)) rfl (ix2 p q) k
    | ⟨1, _⟩ => exact rhs_col _ _)

/-- A projection block at (p, q): the sum over k of X(p, k) * W(k, q). -/
theorem lin_pay (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  refine (Ideal.matmul_constant_zero_apply dot_S10000x64_S64x64_S10000x64_1_0_0_1_n_n none _ _ (ix2 p q)).trans ?_
  refine LibDotSum.sum_single dot_S10000x64_S64x64_S10000x64_1_0_0_1_n_n 64 rfl rfl _ _ (ix2 p q) _ _ (fun k => ?_) (fun k => ?_)
  · show x _ = x _
    rw [lhs_idx p q k]
  · show w _ = w _
    rw [rhs_idx p q k]

theorem k0_eq (x : Vec Ideal S10000x64 .f32) (w : Vec Ideal S64x64 .f32) : k0_pay1 (F := Ideal) x w = k0_pay1 (F := Ideal) x w := by rfl
theorem k2_eq (x : Vec Ideal S10000x64 .f32) (w : Vec Ideal S64x64 .f32) : k2_pay1 (F := Ideal) x w = k0_pay1 (F := Ideal) x w := by
  unfold k2_pay1 k0_pay1
  rw [shapeCast_self]
theorem k4_eq (x : Vec Ideal S10000x64 .f32) (w : Vec Ideal S64x64 .f32) : k4_pay1 (F := Ideal) x w = k0_pay1 (F := Ideal) x w := by
  unfold k4_pay1 k0_pay1
  rw [shapeCast_self]

/-- A bias block at (p, q): max (X(p, q) + b(0, q)) 0, the zero being the float word 0. -/
theorem relu_pay (x : Vec Ideal S10000x64 .f32) (b : Vec Ideal S1x64 .f32) (p : Fin 10000) (q : Fin 64) :
    k1_pay1 (F := Ideal) x b (ix2 p q)
      = FloatOps.maximumf (F := Ideal) (φ := .f32) (FloatOps.addf (F := Ideal) (φ := .f32) (x (ix2 p q)) (b (ix2 (0 : Fin 1) q))) (Ideal.ofBits .f32 0x00000000#32) := by
  unfold k1_pay1
  rw [shapeCast_self, shapeCast_self]
  have hb := broadcastTo_1b_ab_apply (a := 10000) (b : (⟨2, ![1, 64]⟩ : Shape).Idx → EReal) broadcasts_S1x64_S10000x64 p q
  exact congrArg (fun z => FloatOps.maximumf (F := Ideal) (φ := .f32) (FloatOps.addf (F := Ideal) (φ := .f32) (x (ix2 p q)) z) (Ideal.ofBits .f32 0x00000000#32)) hb

theorem k1_eq (x : Vec Ideal S10000x64 .f32) (b : Vec Ideal S1x64 .f32) : k1_pay1 (F := Ideal) x b = k1_pay1 (F := Ideal) x b := by rfl
theorem k3_eq (x : Vec Ideal S10000x64 .f32) (b : Vec Ideal S1x64 .f32) : k3_pay1 (F := Ideal) x b = k1_pay1 (F := Ideal) x b := by rfl
theorem k5_eq (x : Vec Ideal S10000x64 .f32) (b : Vec Ideal S1x64 .f32) : k5_pay1 (F := Ideal) x b = k1_pay1 (F := Ideal) x b := by rfl

end Cert.KernelIdeal.Bodies

end
-- ==== Proof.Spec.lean ====
/-
  The two whole-array functions the row-blocked regions compute, at the extended reals.

  `lin X W`, for X of 50000 rows and 64 columns and W a 64 x 64 matrix: entry (r, q) is the sum over k of
  X(r, k) * W(k, q) — the product of X and W, whatever row blocks it is computed in.
  `biasRelu A B`, for a bias row B of shape [1, 64]: entry (r, q) is max (A(r, q) + B(0, q)) 0.
-/
import Idealize.ShloMosaic.PureOps.Ideal
import Idealize.ShloMosaic.Lib.ValueIdx

noncomputable section

open scoped BigOperators

namespace Cert.Spec

open Idealize.ShloMosaic Idealize.ShloMosaic.ValueIdx

/-- The product of a [50000, 64] array and a [64, 64] matrix, entry by entry. -/
def lin (X : (⟨2, ![50000, 64]⟩ : Shape).Idx → EReal) (W : (⟨2, ![64, 64]⟩ : Shape).Idx → EReal) :
    (⟨2, ![50000, 64]⟩ : Shape).Idx → EReal :=
  fun i => ∑ k : Fin 64, X (ix2 (⟨(i 0).val, idx2_lt0 i⟩ : Fin 50000) k) * W (ix2 k (⟨(i 1).val, idx2_lt1 i⟩ : Fin 64))

theorem lin_apply (X : (⟨2, ![50000, 64]⟩ : Shape).Idx → EReal) (W : (⟨2, ![64, 64]⟩ : Shape).Idx → EReal)
    (r : Fin 50000) (q : Fin 64) : lin X W (ix2 r q) = ∑ k : Fin 64, X (ix2 r k) * W (ix2 k q) := rfl

/-- A bias row added to every row, then the maximum with the float word zero. -/
def biasRelu (A : (⟨2, ![50000, 64]⟩ : Shape).Idx → EReal) (B : (⟨2, ![1, 64]⟩ : Shape).Idx → EReal) :
    (⟨2, ![50000, 64]⟩ : Shape).Idx → EReal :=
  fun i => FloatOps.maximumf (F := Ideal) (φ := .f32)
    (FloatOps.addf (F := Ideal) (φ := .f32) (A i) (B (ix2 (0 : Fin 1) (⟨(i 1).val, idx2_lt1 i⟩ : Fin 64))))
    (Ideal.ofBits .f32 0x00000000#32)

theorem biasRelu_apply (A : (⟨2, ![50000, 64]⟩ : Shape).Idx → EReal) (B : (⟨2, ![1, 64]⟩ : Shape).Idx → EReal)
    (r : Fin 50000) (q : Fin 64) :
    biasRelu A B (ix2 r q) = FloatOps.maximumf (F := Ideal) (φ := .f32)
      (FloatOps.addf (F := Ideal) (φ := .f32) (A (ix2 r q)) (B (ix2 (0 : Fin 1) q))) (Ideal.ofBits .f32 0x00000000#32) := rfl

end Cert.Spec

end
-- ==== Proof.Reg0.lean ====
/-
  Region 0: a projection computed in five row blocks. Grid point t loads rows 10000 t … 10000 t + 9999 of its input
  array and the whole weight, and writes the same rows of its output array; each written entry is the product's entry
  there, so the output array ends as the whole product.
-/
import proofs.«136268_j11227044511897_1_alg».proof.Proof.Gen.KernelIdeal.Frame
import proofs.«136268_j11227044511897_1_alg».proof.Proof.Bodies
import proofs.«136268_j11227044511897_1_alg».proof.Proof.Spec
import Idealize.ShloMosaic.Lib.Pipeline.Value

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the second window at block (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 10000 t … of its array. -/
theorem rows_read (c : Dev nD) (t : Fin cfg0.N) (p : Fin 10000) (k : Fin 64) (hr : t.val * 10000 + p.val < 50000) :
    (iblk0 V c 0 t : Vec Ideal S10000x64 .f32) (ix2 p k)
      = (V c main_arg0 : S50000x64.Idx → Elt Ideal .f32) (ix2 (⟨t.val * 10000 + p.val, hr⟩ : Fin 50000) k) := by
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = t.val * 10000 + p.val; rw [(idx t).1]; omega
  | ⟨1, _⟩ => show win0_0.index t (1 : Fin 2) * 64 + 1 * k.val = k.val; rw [(idx t).2.1]; omega

/-- The second window's block is the whole weight at every point. -/
theorem w_read (c : Dev nD) (t : Fin cfg0.N) (k q : Fin 64) :
    (iblk0 V c 1 t : Vec Ideal S64x64 .f32) (ix2 k q) = (V c main_arg3 : S64x64.Idx → Elt Ideal .f32) (ix2 k q) := by
  unfold iblk0
  rw [View.read_apply]
  show V c main_arg3 _ = V c main_arg3 _
  refine congrArg (V c main_arg3) (funext fun a => Fin.ext ?_)
  match a with
  | ⟨0, _⟩ => show win0_1.index t (0 : Fin 2) * 64 + 1 * k.val = k.val; rw [(idx t).2.2.1]; omega
  | ⟨1, _⟩ => show win0_1.index t (1 : Fin 2) * 64 + 1 * q.val = q.val; rw [(idx t).2.2.2.1]; omega

/-- Where the output window's block at point t sits in its array. -/
theorem out_emb (t : Fin cfg0.N) (p : Fin 10000) (q : Fin 64) (hr : t.val * 10000 + p.val < 50000) :
    ((cfg0.win 2).blk t).view.emb (ix2 p q) = ix2 (⟨t.val * 10000 + p.val, hr⟩ : Fin 50000) q :=
  funext fun a => Fin.ext (by
    match a with
    | ⟨0, _⟩ => show win0_2.index t (0 : Fin 2) * 10000 + 1 * p.val = t.val * 10000 + p.val; rw [(idx t).2.2.2.2.1]; omega
    | ⟨1, _⟩ => show win0_2.index t (1 : Fin 2) * 64 + 1 * q.val = q.val; rw [(idx t).2.2.2.2.2]; omega)

/-- What point t writes back is block t of the whole-array function of the arrays as the region finds them. -/
theorem flushed (c : Dev nD) (t : Fin cfg0.N) :
    (dat0 V c).flushed 2 t = ((cfg0.win 2).blk t).view.read (Elt Ideal) (Spec.lin (V c main_arg0) (V c main_arg3)) := by
  have hN : cfg0.N = 5 := N_0
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  have hr : t.val * 10000 + p.val < 50000 := by have h1 : t.val < 5 := lt_of_lt_of_eq t.isLt hN; have h2 := p.isLt; omega
  rw [View.read_apply]
  show k0_pay1 (iblk0 V c 0 t) (iblk0 V c 1 t) (ix2 p q) = Spec.lin (V c main_arg0) (V c main_arg3) (((cfg0.win 2).blk t).view.emb (ix2 p q))
  rw [out_emb t p q hr, Spec.lin_apply]
  refine ((congrFun (Bodies.k0_eq (iblk0 V c 0 t) (iblk0 V c 1 t)) (ix2 p q)).trans (Bodies.lin_pay (iblk0 V c 0 t) (iblk0 V c 1 t) p q)).trans ?_
  exact Finset.sum_congr rfl fun k _ => by rw [rows_read V c t p k hr, w_read V c t k q]

/-- Every row of the output array is in some point's block: row r in point r / 10000's. -/
theorem cover (i : S50000x64.Idx) : ∃ t : Fin cfg0.N, (cfg0.win 2).flush t = true ∧ i ∈ ((cfg0.win 2).blk t).view.set := by
  have hN : cfg0.N = 5 := N_0
  have h0 : (i 0).val < 50000 := (i 0).isLt
  have h1 : (i 1).val < 64 := (i 1).isLt
  have ht : (i 0).val / 10000 < cfg0.N := by rw [hN]; omega
  refine ⟨⟨(i 0).val / 10000, ht⟩, flush0_2 _, ?_⟩
  show i ∈ ((View.whole main_v28).slice (win0_2.rect ⟨(i 0).val / 10000, ht⟩)).set
  rw [View.set_slice_whole, Rect.mem_set_unit]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [(idx _).2.2.2.2.1]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [(idx _).2.2.2.2.2]
    omega

/-- The region's output array after the region: the whole-array function of its input arrays as the region finds them. -/
theorem final (c : Dev nD) : (dat0 V c).arrAt 2 cfg0.N = Spec.lin (V c main_arg0) (V c main_arg3) :=
  (dat0 V c).arrAt_eq_of_cover 2 (Spec.lin (V c main_arg0) (V c main_arg3)) (fun t _ => flushed V c t) cover

end Cert.KernelIdeal.Reg0

end
-- ==== Proof.Reg1.lean ====
/-
  Region 1: the bias and the maximum with zero, computed in five row blocks. Grid point t loads rows
  10000 t … 10000 t + 9999 of its input array and the whole bias row, and writes the same rows of its output array;
  each written entry is max (A(r, q) + B(0, q)) 0, so the output array ends as that function of the whole input.
-/
import proofs.«136268_j11227044511897_1_alg».proof.Proof.Gen.KernelIdeal.Frame
import proofs.«136268_j11227044511897_1_alg».proof.Proof.Bodies
import proofs.«136268_j11227044511897_1_alg».proof.Proof.Spec
import Idealize.ShloMosaic.Lib.Pipeline.Value

set_option maxRecDepth 16384

noncomputable section

open scoped BigOperators

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the second window at block (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point t is rows 10000 t … of its array. -/
theorem rows_read (c : Dev nD) (t : Fin cfg1.N) (p : Fin 10000) (k : Fin 64) (hr : t.val * 10000 + p.val < 50000) :
    (iblk1 V c 0 t : Vec Ideal S10000x64 .f32) (ix2 p k)
      = (V c main_v40 : S50000x64.Idx → Elt Ideal .f32) (ix2 (⟨t.val * 10000 + p.val, hr⟩ : Fin 50000) k) := by
  unfold iblk1
  rw [View.read_apply]
  show V c main_v40 _ = V c main_v40 _
  refine congrArg (V c main_v40) (funext fun a => Fin.ext ?_)
  match a with
  | ⟨0, _⟩ => show win1_0.index t (0 : Fin 2) * 10000 + 1 * p.val = t.val * 10000 + p.val; rw [(idx t).1]; omega
  | ⟨1, _⟩ => show win1_0.index t (1 : Fin 2) * 64 + 1 * k.val = k.val; rw [(idx t).2.1]; omega

/-- The second window's block is the whole bias row at every point. -/
theorem w_read (c : Dev nD) (t : Fin cfg1.N) (q : Fin 64) :
    (iblk1 V c 1 t : Vec Ideal S1x64 .f32) (ix2 (0 : Fin 1) q) = (V c main_v41 : S1x64.Idx → Elt Ideal .f32) (ix2 (0 : Fin 1) q) := by
  unfold iblk1
  rw [View.read_apply]
  show V c main_v41 _ = V c main_v41 _
  refine congrArg (V c main_v41) (funext fun a => Fin.ext ?_)
  match a with
  | ⟨0, _⟩ => show win1_1.index t (0 : Fin 2) * 1 + 1 * 0 = 0; rw [(idx t).2.2.1]
  | ⟨1, _⟩ => show win1_1.index t (1 : Fin 2) * 64 + 1 * q.val = q.val; rw [(idx t).2.2.2.1]; omega

/-- Where the output window's block at point t sits in its array. -/
theorem out_emb (t : Fin cfg1.N) (p : Fin 10000) (q : Fin 64) (hr : t.val * 10000 + p.val < 50000) :
    ((cfg1.win 2).blk t).view.emb (ix2 p q) = ix2 (⟨t.val * 10000 + p.val, hr⟩ : Fin 50000) q :=
  funext fun a => Fin.ext (by
    match a with
    | ⟨0, _⟩ => show win1_2.index t (0 : Fin 2) * 10000 + 1 * p.val = t.val * 10000 + p.val; rw [(idx t).2.2.2.2.1]; omega
    | ⟨1, _⟩ => show win1_2.index t (1 : Fin 2) * 64 + 1 * q.val = q.val; rw [(idx t).2.2.2.2.2]; omega)

/-- What point t writes back is block t of the whole-array function of the arrays as the region finds them. -/
theorem flushed (c : Dev nD) (t : Fin cfg1.N) :
    (dat1 V c).flushed 2 t = ((cfg1.win 2).blk t).view.read (Elt Ideal) (Spec.biasRelu (V c main_v40) (V c main_v41)) := by
  have hN : cfg1.N = 5 := N_1
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  have hr : t.val * 10000 + p.val < 50000 := by have h1 : t.val < 5 := lt_of_lt_of_eq t.isLt hN; have h2 := p.isLt; omega
  rw [View.read_apply]
  show k1_pay1 (iblk1 V c 0 t) (iblk1 V c 1 t) (ix2 p q) = Spec.biasRelu (V c main_v40) (V c main_v41) (((cfg1.win 2).blk t).view.emb (ix2 p q))
  rw [out_emb t p q hr, Spec.biasRelu_apply]
  refine ((congrFun (Bodies.k1_eq (iblk1 V c 0 t) (iblk1 V c 1 t)) (ix2 p q)).trans (Bodies.relu_pay (iblk1 V c 0 t) (iblk1 V c 1 t) p q)).trans ?_
  rw [rows_read V c t p q hr, w_read V c t q]

/-- Every row of the output array is in some point's block: row r in point r / 10000's. -/
theorem cover (i : S50000x64.Idx) : ∃ t : Fin cfg1.N, (cfg1.win 2).flush t = true ∧ i ∈ ((cfg1.win 2).blk t).view.set := by
  have hN : cfg1.N = 5 := N_1
  have h0 : (i 0).val < 50000 := (i 0).isLt
  have h1 : (i 1).val < 64 := (i 1).isLt
  have ht : (i 0).val / 10000 < cfg1.N := by rw [hN]; omega
  refine ⟨⟨(i 0).val / 10000, ht⟩, flush1_2 _, ?_⟩
  show i ∈ ((View.whole main_v42).slice (win1_2.rect ⟨(i 0).val / 10000, ht⟩)).set
  rw [View.set_slice_whole, Rect.mem_set_unit]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [(idx _).2.2.2.2.1]
    show (i 0).val / 10000 * 10000 ≤ (i 0).val ∧ (i 0).val < (i 0).val / 10000 * 10000 + 10000
    omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [(idx _).2.2.2.2.2]
    omega

/-- The region's output array after the region: the whole-array function of its input arrays as the region finds them. -/
theorem final (c : Dev nD) : (dat1 V c).arrAt 2 cfg1.N = Spec.biasRelu (V c main_v40) (V c main_v41) :=
  (dat1 V c).arrAt_eq_of_cover 2 (Spec.biasRelu (V c main_v40) (V c main_v41)) (fun t _ => flushed V c t) cover

end Cert.KernelIdeal.Reg1

end
-- ==== Proof.Reg2.lean ====
/-
  Region 2: a projection computed in five row blocks. Grid point t loads rows 10000 t … 10000 t + 9999 of its input
  array and the whole weight, and writes the same rows of its output array; each written entry is the product's entry
  there, so the output array ends as the whole product.
-/
import proofs.«136268_j11227044511897_1_alg».proof.Proof.Gen.KernelIdeal.Frame
import proofs.«136268_j11227044511897_1_alg».proof.Proof.Bodies
import proofs.«136268_j11227044511897_1_alg».proof.Proof.Spec
import Idealize.ShloMosaic.Lib.Pipeline.Value

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the second window at block (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point t is rows 10000 t … of its array. -/
theorem rows_read (c : Dev nD) (t : Fin cfg2.N) (p : Fin 10000) (k : Fin 64) (hr : t.val * 10000 + p.val < 50000) :
    (iblk2 V c 0 t : Vec Ideal S10000x64 .f32) (ix2 p k)
      = (V c main_v42 : S50000x64.Idx → Elt Ideal .f32) (ix2 (⟨t.val * 10000 + p.val, hr⟩ : Fin 50000) k) := by
  unfold iblk2
  rw [View.read_apply]
  show V c main_v42 _ = V c main_v42 _
  refine congrArg (V c main_v42) (funext fun a => Fin.ext ?_)
  match a with
  | ⟨0, _⟩ => show win2_0.index t (0 : Fin 2) * 10000 + 1 * p.val = t.val * 10000 + p.val; rw [(idx t).1]; omega
  | ⟨1, _⟩ => show win2_0.index t (1 : Fin 2) * 64 + 1 * k.val = k.val; rw [(idx t).2.1]; omega

/-- The second window's block is the whole weight at every point. -/
theorem w_read (c : Dev nD) (t : Fin cfg2.N) (k q : Fin 64) :
    (iblk2 V c 1 t : Vec Ideal S64x64 .f32) (ix2 k q) = (V c main_arg5 : S64x64.Idx → Elt Ideal .f32) (ix2 k q) := by
  unfold iblk2
  rw [View.read_apply]
  show V c main_arg5 _ = V c main_arg5 _
  refine congrArg (V c main_arg5) (funext fun a => Fin.ext ?_)
  match a with
  | ⟨0, _⟩ => show win2_1.index t (0 : Fin 2) * 64 + 1 * k.val = k.val; rw [(idx t).2.2.1]; omega
  | ⟨1, _⟩ => show win2_1.index t (1 : Fin 2) * 64 + 1 * q.val = q.val; rw [(idx t).2.2.2.1]; omega

/-- Where the output window's block at point t sits in its array. -/
theorem out_emb (t : Fin cfg2.N) (p : Fin 10000) (q : Fin 64) (hr : t.val * 10000 + p.val < 50000) :
    ((cfg2.win 2).blk t).view.emb (ix2 p q) = ix2 (⟨t.val * 10000 + p.val, hr⟩ : Fin 50000) q :=
  funext fun a => Fin.ext (by
    match a with
    | ⟨0, _⟩ => show win2_2.index t (0 : Fin 2) * 10000 + 1 * p.val = t.val * 10000 + p.val; rw [(idx t).2.2.2.2.1]; omega
    | ⟨1, _⟩ => show win2_2.index t (1 : Fin 2) * 64 + 1 * q.val = q.val; rw [(idx t).2.2.2.2.2]; omega)

/-- What point t writes back is block t of the whole-array function of the arrays as the region finds them. -/
theorem flushed (c : Dev nD) (t : Fin cfg2.N) :
    (dat2 V c).flushed 2 t = ((cfg2.win 2).blk t).view.read (Elt Ideal) (Spec.lin (V c main_v42) (V c main_arg5)) := by
  have hN : cfg2.N = 5 := N_2
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  have hr : t.val * 10000 + p.val < 50000 := by have h1 : t.val < 5 := lt_of_lt_of_eq t.isLt hN; have h2 := p.isLt; omega
  rw [View.read_apply]
  show k2_pay1 (iblk2 V c 0 t) (iblk2 V c 1 t) (ix2 p q) = Spec.lin (V c main_v42) (V c main_arg5) (((cfg2.win 2).blk t).view.emb (ix2 p q))
  rw [out_emb t p q hr, Spec.lin_apply]
  refine ((congrFun (Bodies.k2_eq (iblk2 V c 0 t) (iblk2 V c 1 t)) (ix2 p q)).trans (Bodies.lin_pay (iblk2 V c 0 t) (iblk2 V c 1 t) p q)).trans ?_
  exact Finset.sum_congr rfl fun k _ => by rw [rows_read V c t p k hr, w_read V c t k q]

/-- Every row of the output array is in some point's block: row r in point r / 10000's. -/
theorem cover (i : S50000x64.Idx) : ∃ t : Fin cfg2.N, (cfg2.win 2).flush t = true ∧ i ∈ ((cfg2.win 2).blk t).view.set := by
  have hN : cfg2.N = 5 := N_2
  have h0 : (i 0).val < 50000 := (i 0).isLt
  have h1 : (i 1).val < 64 := (i 1).isLt
  have ht : (i 0).val / 10000 < cfg2.N := by rw [hN]; omega
  refine ⟨⟨(i 0).val / 10000, ht⟩, flush2_2 _, ?_⟩
  show i ∈ ((View.whole main_v43).slice (win2_2.rect ⟨(i 0).val / 10000, ht⟩)).set
  rw [View.set_slice_whole, Rect.mem_set_unit]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [(idx _).2.2.2.2.1]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [(idx _).2.2.2.2.2]
    omega

/-- The region's output array after the region: the whole-array function of its input arrays as the region finds them. -/
theorem final (c : Dev nD) : (dat2 V c).arrAt 2 cfg2.N = Spec.lin (V c main_v42) (V c main_arg5) :=
  (dat2 V c).arrAt_eq_of_cover 2 (Spec.lin (V c main_v42) (V c main_arg5)) (fun t _ => flushed V c t) cover

end Cert.KernelIdeal.Reg2

end
-- ==== Proof.Reg3.lean ====
/-
  Region 3: the bias and the maximum with zero, computed in five row blocks. Grid point t loads rows
  10000 t … 10000 t + 9999 of its input array and the whole bias row, and writes the same rows of its output array;
  each written entry is max (A(r, q) + B(0, q)) 0, so the output array ends as that function of the whole input.
-/
import proofs.«136268_j11227044511897_1_alg».proof.Proof.Gen.KernelIdeal.Frame
import proofs.«136268_j11227044511897_1_alg».proof.Proof.Bodies
import proofs.«136268_j11227044511897_1_alg».proof.Proof.Spec
import Idealize.ShloMosaic.Lib.Pipeline.Value

set_option maxRecDepth 16384

noncomputable section

open scoped BigOperators

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the second window at block (0, 0). -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at point t is rows 10000 t … of its array. -/
theorem rows_read (c : Dev nD) (t : Fin cfg3.N) (p : Fin 10000) (k : Fin 64) (hr : t.val * 10000 + p.val < 50000) :
    (iblk3 V c 0 t : Vec Ideal S10000x64 .f32) (ix2 p k)
      = (V c main_v55 : S50000x64.Idx → Elt Ideal .f32) (ix2 (⟨t.val * 10000 + p.val, hr⟩ : Fin 50000) k) := by
  unfold iblk3
  rw [View.read_apply]
  show V c main_v55 _ = V c main_v55 _
  refine congrArg (V c main_v55) (funext fun a => Fin.ext ?_)
  match a with
  | ⟨0, _⟩ => show win3_0.index t (0 : Fin 2) * 10000 + 1 * p.val = t.val * 10000 + p.val; rw [(idx t).1]; omega
  | ⟨1, _⟩ => show win3_0.index t (1 : Fin 2) * 64 + 1 * k.val = k.val; rw [(idx t).2.1]; omega

/-- The second window's block is the whole bias row at every point. -/
theorem w_read (c : Dev nD) (t : Fin cfg3.N) (q : Fin 64) :
    (iblk3 V c 1 t : Vec Ideal S1x64 .f32) (ix2 (0 : Fin 1) q) = (V c main_v56 : S1x64.Idx → Elt Ideal .f32) (ix2 (0 : Fin 1) q) := by
  unfold iblk3
  rw [View.read_apply]
  show V c main_v56 _ = V c main_v56 _
  refine congrArg (V c main_v56) (funext fun a => Fin.ext ?_)
  match a with
  | ⟨0, _⟩ => show win3_1.index t (0 : Fin 2) * 1 + 1 * 0 = 0; rw [(idx t).2.2.1]
  | ⟨1, _⟩ => show win3_1.index t (1 : Fin 2) * 64 + 1 * q.val = q.val; rw [(idx t).2.2.2.1]; omega

/-- Where the output window's block at point t sits in its array. -/
theorem out_emb (t : Fin cfg3.N) (p : Fin 10000) (q : Fin 64) (hr : t.val * 10000 + p.val < 50000) :
    ((cfg3.win 2).blk t).view.emb (ix2 p q) = ix2 (⟨t.val * 10000 + p.val, hr⟩ : Fin 50000) q :=
  funext fun a => Fin.ext (by
    match a with
    | ⟨0, _⟩ => show win3_2.index t (0 : Fin 2) * 10000 + 1 * p.val = t.val * 10000 + p.val; rw [(idx t).2.2.2.2.1]; omega
    | ⟨1, _⟩ => show win3_2.index t (1 : Fin 2) * 64 + 1 * q.val = q.val; rw [(idx t).2.2.2.2.2]; omega)

/-- What point t writes back is block t of the whole-array function of the arrays as the region finds them. -/
theorem flushed (c : Dev nD) (t : Fin cfg3.N) :
    (dat3 V c).flushed 2 t = ((cfg3.win 2).blk t).view.read (Elt Ideal) (Spec.biasRelu (V c main_v55) (V c main_v56)) := by
  have hN : cfg3.N = 5 := N_3
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  have hr : t.val * 10000 + p.val < 50000 := by have h1 : t.val < 5 := lt_of_lt_of_eq t.isLt hN; have h2 := p.isLt; omega
  rw [View.read_apply]
  show k3_pay1 (iblk3 V c 0 t) (iblk3 V c 1 t) (ix2 p q) = Spec.biasRelu (V c main_v55) (V c main_v56) (((cfg3.win 2).blk t).view.emb (ix2 p q))
  rw [out_emb t p q hr, Spec.biasRelu_apply]
  refine ((congrFun (Bodies.k3_eq (iblk3 V c 0 t) (iblk3 V c 1 t)) (ix2 p q)).trans (Bodies.relu_pay (iblk3 V c 0 t) (iblk3 V c 1 t) p q)).trans ?_
  rw [rows_read V c t p q hr, w_read V c t q]

/-- Every row of the output array is in some point's block: row r in point r / 10000's. -/
theorem cover (i : S50000x64.Idx) : ∃ t : Fin cfg3.N, (cfg3.win 2).flush t = true ∧ i ∈ ((cfg3.win 2).blk t).view.set := by
  have hN : cfg3.N = 5 := N_3
  have h0 : (i 0).val < 50000 := (i 0).isLt
  have h1 : (i 1).val < 64 := (i 1).isLt
  have ht : (i 0).val / 10000 < cfg3.N := by rw [hN]; omega
  refine ⟨⟨(i 0).val / 10000, ht⟩, flush3_2 _, ?_⟩
  show i ∈ ((View.whole main_v57).slice (win3_2.rect ⟨(i 0).val / 10000, ht⟩)).set
  rw [View.set_slice_whole, Rect.mem_set_unit]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [(idx _).2.2.2.2.1]
    show (i 0).val / 10000 * 10000 ≤ (i 0).val ∧ (i 0).val < (i 0).val / 10000 * 10000 + 10000
    omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [(idx _).2.2.2.2.2]
    omega

/-- The region's output array after the region: the whole-array function of its input arrays as the region finds them. -/
theorem final (c : Dev nD) : (dat3 V c).arrAt 2 cfg3.N = Spec.biasRelu (V c main_v55) (V c main_v56) :=
  (dat3 V c).arrAt_eq_of_cover 2 (Spec.biasRelu (V c main_v55) (V c main_v56)) (fun t _ => flushed V c t) cover

end Cert.KernelIdeal.Reg3

end
-- ==== Proof.Reg4.lean ====
/-
  Region 4: a projection computed in five row blocks. Grid point t loads rows 10000 t … 10000 t + 9999 of its input
  array and the whole weight, and writes the same rows of its output array; each written entry is the product's entry
  there, so the output array ends as the whole product.
-/
import proofs.«136268_j11227044511897_1_alg».proof.Proof.Gen.KernelIdeal.Frame
import proofs.«136268_j11227044511897_1_alg».proof.Proof.Bodies
import proofs.«136268_j11227044511897_1_alg».proof.Proof.Spec
import Idealize.ShloMosaic.Lib.Pipeline.Value

set_option maxRecDepth 16384

noncomputable section

open scoped BigOperators

namespace Cert.KernelIdeal.Reg4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the second window at block (0, 0). -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row window's block at point t is rows 10000 t … of its array. -/
theorem rows_read (c : Dev nD) (t : Fin cfg4.N) (p : Fin 10000) (k : Fin 64) (hr : t.val * 10000 + p.val < 50000) :
    (iblk4 V c 0 t : Vec Ideal S10000x64 .f32) (ix2 p k)
      = (V c main_v57 : S50000x64.Idx → Elt Ideal .f32) (ix2 (⟨t.val * 10000 + p.val, hr⟩ : Fin 50000) k) := by
  unfold iblk4
  rw [View.read_apply]
  show V c main_v57 _ = V c main_v57 _
  refine congrArg (V c main_v57) (funext fun a => Fin.ext ?_)
  match a with
  | ⟨0, _⟩ => show win4_0.index t (0 : Fin 2) * 10000 + 1 * p.val = t.val * 10000 + p.val; rw [(idx t).1]; omega
  | ⟨1, _⟩ => show win4_0.index t (1 : Fin 2) * 64 + 1 * k.val = k.val; rw [(idx t).2.1]; omega

/-- The second window's block is the whole weight at every point. -/
theorem w_read (c : Dev nD) (t : Fin cfg4.N) (k q : Fin 64) :
    (iblk4 V c 1 t : Vec Ideal S64x64 .f32) (ix2 k q) = (V c main_arg7 : S64x64.Idx → Elt Ideal .f32) (ix2 k q) := by
  unfold iblk4
  rw [View.read_apply]
  show V c main_arg7 _ = V c main_arg7 _
  refine congrArg (V c main_arg7) (funext fun a => Fin.ext ?_)
  match a with
  | ⟨0, _⟩ => show win4_1.index t (0 : Fin 2) * 64 + 1 * k.val = k.val; rw [(idx t).2.2.1]; omega
  | ⟨1, _⟩ => show win4_1.index t (1 : Fin 2) * 64 + 1 * q.val = q.val; rw [(idx t).2.2.2.1]; omega

/-- Where the output window's block at point t sits in its array. -/
theorem out_emb (t : Fin cfg4.N) (p : Fin 10000) (q : Fin 64) (hr : t.val * 10000 + p.val < 50000) :
    ((cfg4.win 2).blk t).view.emb (ix2 p q) = ix2 (⟨t.val * 10000 + p.val, hr⟩ : Fin 50000) q :=
  funext fun a => Fin.ext (by
    match a with
    | ⟨0, _⟩ => show win4_2.index t (0 : Fin 2) * 10000 + 1 * p.val = t.val * 10000 + p.val; rw [(idx t).2.2.2.2.1]; omega
    | ⟨1, _⟩ => show win4_2.index t (1 : Fin 2) * 64 + 1 * q.val = q.val; rw [(idx t).2.2.2.2.2]; omega)

/-- What point t writes back is block t of the whole-array function of the arrays as the region finds them. -/
theorem flushed (c : Dev nD) (t : Fin cfg4.N) :
    (dat4 V c).flushed 2 t = ((cfg4.win 2).blk t).view.read (Elt Ideal) (Spec.lin (V c main_v57) (V c main_arg7)) := by
  have hN : cfg4.N = 5 := N_4
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  have hr : t.val * 10000 + p.val < 50000 := by have h1 : t.val < 5 := lt_of_lt_of_eq t.isLt hN; have h2 := p.isLt; omega
  rw [View.read_apply]
  show k4_pay1 (iblk4 V c 0 t) (iblk4 V c 1 t) (ix2 p q) = Spec.lin (V c main_v57) (V c main_arg7) (((cfg4.win 2).blk t).view.emb (ix2 p q))
  rw [out_emb t p q hr, Spec.lin_apply]
  refine ((congrFun (Bodies.k4_eq (iblk4 V c 0 t) (iblk4 V c 1 t)) (ix2 p q)).trans (Bodies.lin_pay (iblk4 V c 0 t) (iblk4 V c 1 t) p q)).trans ?_
  exact Finset.sum_congr rfl fun k _ => by rw [rows_read V c t p k hr, w_read V c t k q]

/-- Every row of the output array is in some point's block: row r in point r / 10000's. -/
theorem cover (i : S50000x64.Idx) : ∃ t : Fin cfg4.N, (cfg4.win 2).flush t = true ∧ i ∈ ((cfg4.win 2).blk t).view.set := by
  have hN : cfg4.N = 5 := N_4
  have h0 : (i 0).val < 50000 := (i 0).isLt
  have h1 : (i 1).val < 64 := (i 1).isLt
  have ht : (i 0).val / 10000 < cfg4.N := by rw [hN]; omega
  refine ⟨⟨(i 0).val / 10000, ht⟩, flush4_2 _, ?_⟩
  show i ∈ ((View.whole main_v58).slice (win4_2.rect ⟨(i 0).val / 10000, ht⟩)).set
  rw [View.set_slice_whole, Rect.mem_set_unit]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [(idx _).2.2.2.2.1]
    show (i 0).val / 10000 * 10000 ≤ (i 0).val ∧ (i 0).val < (i 0).val / 10000 * 10000 + 10000
    omega
  | ⟨1, _⟩ =>
    show win4_2.index ⟨(i 0).val / 10000, ht⟩ (1 : Fin 2) * 64 ≤ (i 1).val ∧ (i 1).val < win4_2.index ⟨(i 0).val / 10000, ht⟩ (1 : Fin 2) * 64 + 64
    rw [(idx _).2.2.2.2.2]
    omega

/-- The region's output array after the region: the whole-array function of its input arrays as the region finds them. -/
theorem final (c : Dev nD) : (dat4 V c).arrAt 2 cfg4.N = Spec.lin (V c main_v57) (V c main_arg7) :=
  (dat4 V c).arrAt_eq_of_cover 2 (Spec.lin (V c main_v57) (V c main_arg7)) (fun t _ => flushed V c t) cover

end Cert.KernelIdeal.Reg4

end
-- ==== Proof.Reg5.lean ====
/-
  Region 5: the bias and the maximum with zero, computed in five row blocks. Grid point t loads rows
  10000 t … 10000 t + 9999 of its input array and the whole bias row, and writes the same rows of its output array;
  each written entry is max (A(r, q) + B(0, q)) 0, so the output array ends as that function of the whole input.
-/
import proofs.«136268_j11227044511897_1_alg».proof.Proof.Gen.KernelIdeal.Frame
import proofs.«136268_j11227044511897_1_alg».proof.Proof.Bodies
import proofs.«136268_j11227044511897_1_alg».proof.Proof.Spec
import Idealize.ShloMosaic.Lib.Pipeline.Value

set_option maxRecDepth 16384

noncomputable section

open scoped BigOperators

namespace Cert.KernelIdeal.Reg5

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the second window at block (0, 0). -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The row window's block at point t is rows 10000 t … of its array. -/
theorem rows_read (c : Dev nD) (t : Fin cfg5.N) (p : Fin 10000) (k : Fin 64) (hr : t.val * 10000 + p.val < 50000) :
    (iblk5 V c 0 t : Vec Ideal S10000x64 .f32) (ix2 p k)
      = (V c main_v70 : S50000x64.Idx → Elt Ideal .f32) (ix2 (⟨t.val * 10000 + p.val, hr⟩ : Fin 50000) k) := by
  unfold iblk5
  rw [View.read_apply]
  show V c main_v70 _ = V c main_v70 _
  refine congrArg (V c main_v70) (funext fun a => Fin.ext ?_)
  match a with
  | ⟨0, _⟩ => show win5_0.index t (0 : Fin 2) * 10000 + 1 * p.val = t.val * 10000 + p.val; rw [(idx t).1]; omega
  | ⟨1, _⟩ => show win5_0.index t (1 : Fin 2) * 64 + 1 * k.val = k.val; rw [(idx t).2.1]; omega

/-- The second window's block is the whole bias row at every point. -/
theorem w_read (c : Dev nD) (t : Fin cfg5.N) (q : Fin 64) :
    (iblk5 V c 1 t : Vec Ideal S1x64 .f32) (ix2 (0 : Fin 1) q) = (V c main_v71 : S1x64.Idx → Elt Ideal .f32) (ix2 (0 : Fin 1) q) := by
  unfold iblk5
  rw [View.read_apply]
  show V c main_v71 _ = V c main_v71 _
  refine congrArg (V c main_v71) (funext fun a => Fin.ext ?_)
  match a with
  | ⟨0, _⟩ => show win5_1.index t (0 : Fin 2) * 1 + 1 * 0 = 0; rw [(idx t).2.2.1]
  | ⟨1, _⟩ => show win5_1.index t (1 : Fin 2) * 64 + 1 * q.val = q.val; rw [(idx t).2.2.2.1]; omega

/-- Where the output window's block at point t sits in its array. -/
theorem out_emb (t : Fin cfg5.N) (p : Fin 10000) (q : Fin 64) (hr : t.val * 10000 + p.val < 50000) :
    ((cfg5.win 2).blk t).view.emb (ix2 p q) = ix2 (⟨t.val * 10000 + p.val, hr⟩ : Fin 50000) q :=
  funext fun a => Fin.ext (by
    match a with
    | ⟨0, _⟩ => show win5_2.index t (0 : Fin 2) * 10000 + 1 * p.val = t.val * 10000 + p.val; rw [(idx t).2.2.2.2.1]; omega
    | ⟨1, _⟩ => show win5_2.index t (1 : Fin 2) * 64 + 1 * q.val = q.val; rw [(idx t).2.2.2.2.2]; omega)

/-- What point t writes back is block t of the whole-array function of the arrays as the region finds them. -/
theorem flushed (c : Dev nD) (t : Fin cfg5.N) :
    (dat5 V c).flushed 2 t = ((cfg5.win 2).blk t).view.read (Elt Ideal) (Spec.biasRelu (V c main_v70) (V c main_v71)) := by
  have hN : cfg5.N = 5 := N_5
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  have hr : t.val * 10000 + p.val < 50000 := by have h1 : t.val < 5 := lt_of_lt_of_eq t.isLt hN; have h2 := p.isLt; omega
  rw [View.read_apply]
  show k5_pay1 (iblk5 V c 0 t) (iblk5 V c 1 t) (ix2 p q) = Spec.biasRelu (V c main_v70) (V c main_v71) (((cfg5.win 2).blk t).view.emb (ix2 p q))
  rw [out_emb t p q hr, Spec.biasRelu_apply]
  refine ((congrFun (Bodies.k5_eq (iblk5 V c 0 t) (iblk5 V c 1 t)) (ix2 p q)).trans (Bodies.relu_pay (iblk5 V c 0 t) (iblk5 V c 1 t) p q)).trans ?_
  rw [rows_read V c t p q hr, w_read V c t q]

/-- Every row of the output array is in some point's block: row r in point r / 10000's. -/
theorem cover (i : S50000x64.Idx) : ∃ t : Fin cfg5.N, (cfg5.win 2).flush t = true ∧ i ∈ ((cfg5.win 2).blk t).view.set := by
  have hN : cfg5.N = 5 := N_5
  have h0 : (i 0).val < 50000 := (i 0).isLt
  have h1 : (i 1).val < 64 := (i 1).isLt
  have ht : (i 0).val / 10000 < cfg5.N := by rw [hN]; omega
  refine ⟨⟨(i 0).val / 10000, ht⟩, flush5_2 _, ?_⟩
  show i ∈ ((View.whole main_v72).slice (win5_2.rect ⟨(i 0).val / 10000, ht⟩)).set
  rw [View.set_slice_whole, Rect.mem_set_unit]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [(idx _).2.2.2.2.1]
    show (i 0).val / 10000 * 10000 ≤ (i 0).val ∧ (i 0).val < (i 0).val / 10000 * 10000 + 10000
    omega
  | ⟨1, _⟩ =>
    show win5_2.index ⟨(i 0).val / 10000, ht⟩ (1 : Fin 2) * 64 ≤ (i 1).val ∧ (i 1).val < win5_2.index ⟨(i 0).val / 10000, ht⟩ (1 : Fin 2) * 64 + 64
    rw [(idx _).2.2.2.2.2]
    omega

/-- The region's output array after the region: the whole-array function of its input arrays as the region finds them. -/
theorem final (c : Dev nD) : (dat5 V c).arrAt 2 cfg5.N = Spec.biasRelu (V c main_v70) (V c main_v71) :=
  (dat5 V c).arrAt_eq_of_cover 2 (Spec.biasRelu (V c main_v70) (V c main_v71)) (fun t _ => flushed V c t) cover

end Cert.KernelIdeal.Reg5

end
-- ==== Proof.Reg6.lean ====
/-
  The last region: the two-layer head and the log-softmax, at ONE grid point whose blocks are the whole arrays. So each
  input block is its array, and what the point writes back — the body's one stored value of its loads — is the whole
  output array: the output ends as the body's function of the five input arrays as the region finds them.
-/
import proofs.«136268_j11227044511897_1_alg».proof.Proof.Gen.KernelIdeal.Frame
import Idealize.ShloMosaic.Lib.Pipeline.Value
import Idealize.ShloMosaic.Lib.ValueIdx

set_option maxRecDepth 16384

noncomputable section

namespace Cert.KernelIdeal.Reg6

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every window sits at block (0, 0) at the one point. -/
theorem idx : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Input window 0's block is its whole array. -/
theorem blk_0 (c : Dev nD) (t : Fin cfg6.N) : (iblk6 V c 0 t : Vec Ideal S500x64 .f32) = (V c main_v84 : S500x64.Idx → Elt Ideal .f32) := by
  funext y
  unfold iblk6
  rw [View.read_apply]
  show V c main_v84 _ = V c main_v84 _
  refine congrArg (V c main_v84) (funext fun a => Fin.ext ?_)
  match a with
  | ⟨0, _⟩ => show win6_0.index t (0 : Fin 2) * 500 + 1 * (y 0).val = (y 0).val; rw [(idx t).1]; omega
  | ⟨1, _⟩ => show win6_0.index t (1 : Fin 2) * 64 + 1 * (y 1).val = (y 1).val; rw [(idx t).2.1]; omega

/-- Input window 1's block is its whole array. -/
theorem blk_1 (c : Dev nD) (t : Fin cfg6.N) : (iblk6 V c 1 t : Vec Ideal S64x64 .f32) = (V c main_arg9 : S64x64.Idx → Elt Ideal .f32) := by
  funext y
  unfold iblk6
  rw [View.read_apply]
  show V c main_arg9 _ = V c main_arg9 _
  refine congrArg (V c main_arg9) (funext fun a => Fin.ext ?_)
  match a with
  | ⟨0, _⟩ => show win6_1.index t (0 : Fin 2) * 64 + 1 * (y 0).val = (y 0).val; rw [(idx t).2.2.1]; omega
  | ⟨1, _⟩ => show win6_1.index t (1 : Fin 2) * 64 + 1 * (y 1).val = (y 1).val; rw [(idx t).2.2.2.1]; omega

/-- Input window 2's block is its whole array. -/
theorem blk_2 (c : Dev nD) (t : Fin cfg6.N) : (iblk6 V c 2 t : Vec Ideal S1x64 .f32) = (V c main_v85 : S1x64.Idx → Elt Ideal .f32) := by
  funext y
  unfold iblk6
  rw [View.read_apply]
  show V c main_v85 _ = V c main_v85 _
  refine congrArg (V c main_v85) (funext fun a => Fin.ext ?_)
  match a with
  | ⟨0, _⟩ => show win6_2.index t (0 : Fin 2) * 1 + 1 * (y 0).val = (y 0).val; rw [(idx t).2.2.2.2.1]; omega
  | ⟨1, _⟩ => show win6_2.index t (1 : Fin 2) * 64 + 1 * (y 1).val = (y 1).val; rw [(idx t).2.2.2.2.2.1]; omega

/-- Input window 3's block is its whole array. -/
theorem blk_3 (c : Dev nD) (t : Fin cfg6.N) : (iblk6 V c 3 t : Vec Ideal S64x10 .f32) = (V c main_arg11 : S64x10.Idx → Elt Ideal .f32) := by
  funext y
  unfold iblk6
  rw [View.read_apply]
  show V c main_arg11 _ = V c main_arg11 _
  refine congrArg (V c main_arg11) (funext fun a => Fin.ext ?_)
  match a with
  | ⟨0, _⟩ => show win6_3.index t (0 : Fin 2) * 64 + 1 * (y 0).val = (y 0).val; rw [(idx t).2.2.2.2.2.2.1]; omega
  | ⟨1, _⟩ => show win6_3.index t (1 : Fin 2) * 10 + 1 * (y 1).val = (y 1).val; rw [(idx t).2.2.2.2.2.2.2.1]; omega

/-- Input window 4's block is its whole array. -/
theorem blk_4 (c : Dev nD) (t : Fin cfg6.N) : (iblk6 V c 4 t : Vec Ideal S1x10 .f32) = (V c main_v86 : S1x10.Idx → Elt Ideal .f32) := by
  funext y
  unfold iblk6
  rw [View.read_apply]
  show V c main_v86 _ = V c main_v86 _
  refine congrArg (V c main_v86) (funext fun a => Fin.ext ?_)
  match a with
  | ⟨0, _⟩ => show win6_4.index t (0 : Fin 2) * 1 + 1 * (y 0).val = (y 0).val; rw [(idx t).2.2.2.2.2.2.2.2.1]; omega
  | ⟨1, _⟩ => show win6_4.index t (1 : Fin 2) * 10 + 1 * (y 1).val = (y 1).val; rw [(idx t).2.2.2.2.2.2.2.2.2.1]; omega

/-- What the point writes back is the whole output: the body's value of the five arrays. -/
theorem flushed (c : Dev nD) (t : Fin cfg6.N) :
    (dat6 V c).flushed 5 t = ((cfg6.win 5).blk t).view.read (Elt Ideal) (k6_pay1 (F := Ideal) (V c main_v84) (V c main_arg9) (V c main_v85) (V c main_arg11) (V c main_v86)) := by
  show (cfg6.win 5).cut (grid6.coords t) ((dat6 V c).after 5 t) = _
  rw [after6_5]
  unfold out6_5
  rw [View.canon_unit_zero hz]
  simp only [View.ld_unit_zero (S := S500x64) hz, View.ld_unit_zero (S := S64x64) hz, View.ld_unit_zero (S := S1x64) hz, View.ld_unit_zero (S := S64x10) hz, View.ld_unit_zero (S := S1x10) hz]
  rw [blk_0 V c t, blk_1 V c t, blk_2 V c t, blk_3 V c t, blk_4 V c t]
  funext j
  rw [View.read_apply]
  show k6_pay1 (F := Ideal) (V c main_v84) (V c main_arg9) (V c main_v85) (V c main_arg11) (V c main_v86) j = k6_pay1 (F := Ideal) (V c main_v84) (V c main_arg9) (V c main_v85) (V c main_arg11) (V c main_v86) (((cfg6.win 5).blk t).view.emb j)
  refine congrArg (k6_pay1 (F := Ideal) (V c main_v84) (V c main_arg9) (V c main_v85) (V c main_arg11) (V c main_v86)) (funext fun a => Fin.ext ?_)
  match a with
  | ⟨0, _⟩ => show (j 0).val = win6_5.index t (0 : Fin 2) * 500 + 1 * (j 0).val; rw [(idx t).2.2.2.2.2.2.2.2.2.2.1]; omega
  | ⟨1, _⟩ => show (j 1).val = win6_5.index t (1 : Fin 2) * 10 + 1 * (j 1).val; rw [(idx t).2.2.2.2.2.2.2.2.2.2.2]; omega

/-- The one point's block covers the output array. -/
theorem cover (i : S500x10.Idx) : ∃ t : Fin cfg6.N, (cfg6.win 5).flush t = true ∧ i ∈ ((cfg6.win 5).blk t).view.set := by
  have hN : cfg6.N = 1 := N_6
  have ht : 0 < cfg6.N := by rw [hN]; omega
  have h0 : (i 0).val < 500 := (i 0).isLt
  have h1 : (i 1).val < 10 := (i 1).isLt
  refine ⟨⟨0, ht⟩, flush6_5 _, ?_⟩
  show i ∈ ((View.whole main_v87).slice (win6_5.rect ⟨0, ht⟩)).set
  rw [View.set_slice_whole, Rect.mem_set_unit]
  intro a
  match a with
  | ⟨0, _⟩ =>
    show win6_5.index ⟨0, ht⟩ (0 : Fin 2) * 500 ≤ (i 0).val ∧ (i 0).val < win6_5.index ⟨0, ht⟩ (0 : Fin 2) * 500 + 500
    rw [(idx _).2.2.2.2.2.2.2.2.2.2.1]
    omega
  | ⟨1, _⟩ =>
    show win6_5.index ⟨0, ht⟩ (1 : Fin 2) * 10 ≤ (i 1).val ∧ (i 1).val < win6_5.index ⟨0, ht⟩ (1 : Fin 2) * 10 + 10
    rw [(idx _).2.2.2.2.2.2.2.2.2.2.2]
    omega

/-- The output array after the region: the body's value of the five input arrays as the region finds them. -/
theorem final (c : Dev nD) : (dat6 V c).arrAt 5 cfg6.N = k6_pay1 (F := Ideal) (V c main_v84) (V c main_arg9) (V c main_v85) (V c main_arg11) (V c main_v86) :=
  (dat6 V c).arrAt_eq_of_cover 5 (k6_pay1 (F := Ideal) (V c main_v84) (V c main_arg9) (V c main_v85) (V c main_arg11) (V c main_v86)) (fun t _ => flushed V c t) cover

end Cert.KernelIdeal.Reg6

end
-- ==== Proof.RefStages.lean ====
/-
  The reference's stages that the row-blocked regions compute, as the same whole-array functions.

  A host matrix product of a [50000, 64] array with a [64, 64] matrix is `Spec.lin`: both are, at (r, q), the sum over
  k of X(r, k) * W(k, q). The reference's bias stage — the bias broadcast to a row, then to every row, added, and the
  maximum with a broadcast zero — is `Spec.biasRelu` of a bias ROW B that reads the bias vector b at (0, q).
-/
import proofs.«136268_j11227044511897_1_alg».proof.Proof.Gen.ReferenceIdeal.Read
import proofs.«136268_j11227044511897_1_alg».proof.Proof.Spec

noncomputable section

open scoped BigOperators

namespace Cert.RefStages

open Cert.ReferenceIdeal Cert.ReferenceIdeal.Read Idealize.ShloMosaic Idealize.ShloMosaic.ValueIdx

/-- The host product of X and W is the whole product, entry by entry. -/
theorem lin_ref (X : (⟨S50000x64, .f32⟩ : BufTy).Contents (Elt Ideal)) (W : (⟨S64x64, .f32⟩ : BufTy).Contents (Elt Ideal)) :
    val_main_v28 (F := Ideal) X W = Spec.lin X W := by
  funext i
  obtain ⟨r, q, rfl⟩ : ∃ (r : Fin 50000) (q : Fin 64), i = ix2 r q := ⟨i 0, i 1, eq_ix2 i⟩
  refine (val_main_v28_apply X W (ix2 r q)).trans ?_
  rw [Spec.lin_apply]
  refine Finset.sum_congr rfl fun k _ => ?_
  have el : lidx_main_v28 (ix2 r q) k = ix2 r k := funext fun a => by match a with | ⟨0, _⟩ => rfl | ⟨1, _⟩ => rfl
  have er : ridx_main_v28 (ix2 r q) k = ix2 k q := funext fun a => by match a with | ⟨0, _⟩ => rfl | ⟨1, _⟩ => rfl
  rw [el, er]

/-- The reference's bias stage over any array A is `Spec.biasRelu A B`, for a row B holding the bias vector. -/
theorem relu_ref (A : (⟨S50000x64, .f32⟩ : BufTy).Contents (Elt Ideal)) (b : (⟨S64, .f32⟩ : BufTy).Contents (Elt Ideal))
    (B : (⟨2, ![1, 64]⟩ : Shape).Idx → EReal) (hB : ∀ q : Fin 64, B (ix2 (0 : Fin 1) q) = b (ix1 q)) :
    (maximumf (addf A (val_main_v42 (F := Ideal) b)) (val_main_call0_v0 (F := Ideal)) : FVec Ideal S50000x64 .f32) = Spec.biasRelu A B := by
  funext i
  obtain ⟨r, q, rfl⟩ : ∃ (r : Fin 50000) (q : Fin 64), i = ix2 r q := ⟨i 0, i 1, eq_ix2 i⟩
  show FloatOps.maximumf (F := Ideal) (φ := .f32) (FloatOps.addf (F := Ideal) (φ := .f32) (A (ix2 r q)) (val_main_v42 (F := Ideal) b (ix2 r q))) (val_main_call0_v0 (F := Ideal) (ix2 r q)) = _
  rw [val_main_v42_apply, val_main_v41_apply, val_main_call0_v0_apply, val_main_call0_cst_apply, Spec.biasRelu_apply, hB]
  have e : idx_main_v41 (idx_main_v42 (ix2 r q)) = ix1 q := funext fun a => by match a with | ⟨0, _⟩ => rfl
  rw [e]
  rfl

end Cert.RefStages

end
-- ==== Proof.HeadValue.lean ====
import proofs.«136268_j11227044511897_1_alg».proof.Proof.Gen.KernelIdeal.Skeleton
import proofs.«136268_j11227044511897_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.HeadValue

open Idealize.ShloMosaic Idealize.ShloMosaic.TcCoe Idealize.SL.Sem Idealize.ShloMosaic.StableHlo
open Idealize.ShloMosaic.ValueIdx

/-! ## The reference's head: a two-layer perceptron followed by a row-wise log-softmax

The five stages below are the reference's own vector operations, in its order, over an arbitrary
input array in the place of the aggregated features. -/

section Reference
open Cert.ReferenceIdeal Cert.ReferenceIdeal.Gen

/-- An f32 array of shape `s` at the ideal values. -/
abbrev Arr (s : Shape) : Type := FVec Ideal s .f32

/-- The hidden layer: `max (P · w1 + b1, 0)`, the bias laid along every row. -/
def hidden (P : Arr S500x64) (w1 : Arr S64x64) (b1 : Arr S64) : Arr S500x64 :=
  maximumf
    (addf (Host.dotGeneral dot_S500x64_S64x64_S500x64_1_0_0_1_n_n none P w1)
      (broadcastInDim S500x64 ![0, 1] bcast_S1x64_S500x64_0_1 (broadcastInDim S1x64 ![1] bcast_S64_S1x64_1 b1)))
    (broadcastInDim S500x64 ![] bcast_S_S500x64 (constant (F := Ideal) S_ .f32 0x00000000#32))

/-- The output layer: `h · w2 + b2`. -/
def logits (h : Arr S500x64) (w2 : Arr S64x10) (b2 : Arr S10) : Arr S500x10 :=
  addf (Host.dotGeneral dot_S500x64_S64x10_S500x10_1_0_0_1_n_n none h w2)
    (broadcastInDim S500x10 ![0, 1] bcast_S1x10_S500x10_0_1 (broadcastInDim S1x10 ![1] bcast_S10_S1x10_1 b2))

/-- Each row's maximum, taken from `-∞` and once more against `-∞`. -/
def rowMax (l : Arr S500x10) : Arr S500 :=
  maximumf (broadcastInDim S500 ![] bcast_S_S500 (constant (F := Ideal) S_ .f32 0xFF800000#32))
    (Host.reduce FloatOps.maximumf l (constant (F := Ideal) S_ .f32 0xFF800000#32) reducesTo_S500x10_S500_d1 h_S_)

/-- Each row shifted by its maximum. -/
def shifted (l : Arr S500x10) : Arr S500x10 :=
  subf l (broadcastInDim S500x10 ![0, 1] bcast_S500x1_S500x10_0_1
    (broadcastInDim S500x1 ![0] bcast_S500_S500x1_0 (rowMax l)))

/-- The logarithm of each row's sum of exponentials of the shifted row, as a column. -/
def logSumExp (l : Arr S500x10) : Arr S500x1 :=
  Host.log (broadcastInDim S500x1 ![0] bcast_S500_S500x1_0
    (Host.reduceAdd (Host.exp (shifted l)) (constant (F := Ideal) S_ .f32 0x00000000#32) reducesTo_S500x10_S500_d1 h_S_))

/-- The row-wise log-softmax. -/
def logSoftmax (l : Arr S500x10) : Arr S500x10 :=
  subf (shifted l) (broadcastInDim S500x10 ![0, 1] bcast_S500x1_S500x10_0_1 (logSumExp l))

/-- The reference's head over an arbitrary input array `P`. -/
def headRef (P : Arr S500x64) (w1 : Arr S64x64) (b1 : Arr S64) (w2 : Arr S64x10) (b2 : Arr S10) : Arr S500x10 :=
  logSoftmax (logits (hidden P w1 b1) w2 b2)

open Cert.ReferenceIdeal.Read in
/-- The reference's last stage is its head applied to its stage before the head. -/
theorem ref_eq (x0 : Arr S50000x64) (x1 : (⟨S2x800000, .i32⟩ : BufTy).Contents (Elt Ideal))
    (x2 : (⟨S50000, .i32⟩ : BufTy).Contents (Elt Ideal)) (x3 : Arr S64x64) (x4 : Arr S64) (x5 : Arr S64x64) (x6 : Arr S64)
    (x7 : Arr S64x64) (x8 : Arr S64) (x9 : Arr S64x64) (x10 : Arr S64) (x11 : Arr S64x10) (x12 : Arr S10) :
    val_main_v100 (F := Ideal) x0 x1 x2 x3 x4 x5 x6 x7 x8 x9 x10 x11 x12
      = headRef (val_main_v90 (F := Ideal) x0 x1 x2 x3 x4 x5 x6 x7 x8) x9 x10 x11 x12 := by
  generalize hP : val_main_v90 (F := Ideal) x0 x1 x2 x3 x4 x5 x6 x7 x8 = P
  unfold val_main_v100 val_main_call4_v10 val_main_call4_v9 val_main_call4_v8 val_main_call4_v7 val_main_call4_v6
    val_main_call4_v5 val_main_call4_v4 val_main_call4_v3 val_main_call4_v2 val_main_call4_v1 val_main_call4_v0
    val_main_call4_cst val_main_call4_cst_0 val_main_call4_cst_1
    val_main_v99 val_main_v98 val_main_v97 val_main_v96 val_main_v95 val_main_call3_v0 val_main_call3_cst
    val_main_v94 val_main_v93 val_main_v92 val_main_v91
  rw [hP]
  rfl

end Reference

/-! ## Layout steps spelt two ways

A kernel lays a vector along rows or down columns with a shape cast and a broadcast; the host
program does it with broadcasts along named axes. Read at an index the two agree. -/

section Layout
variable {α : Type}

/-- A one-row matrix broadcast down `m` rows is its broadcast along the axes `[0, 1]`. -/
theorem broadcastTo_oneRow_eq {m n : Nat} (y : (⟨2, ![1, n]⟩ : Shape).Idx → α)
    (h : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ y h = broadcastInDim ⟨2, ![m, n]⟩ ![0, 1] hd y := by
  funext j
  obtain ⟨r, c, rfl⟩ : ∃ (r : Fin m) (c : Fin n), j = ix2 r c := ⟨j 0, j 1, eq_ix2 j⟩
  rw [broadcastTo_1b_ab_apply, broadcastInDim_oneRow_apply]

/-- A one-row matrix whose row is the vector `b` is `b` broadcast along axis 1. -/
theorem eq_broadcastInDim_row {n : Nat} (B : (⟨2, ![1, n]⟩ : Shape).Idx → α) (b : (⟨1, ![n]⟩ : Shape).Idx → α)
    (hB : ∀ c : Fin n, B (ix2 (0 : Fin 1) c) = b (ix1 c))
    (hd : (⟨1, ![n]⟩ : Shape).BroadcastsInDim ⟨2, ![1, n]⟩ ![1]) :
    B = broadcastInDim ⟨2, ![1, n]⟩ ![1] hd b := by
  funext j
  obtain ⟨u, c, rfl⟩ : ∃ (u : Fin 1) (c : Fin n), j = ix2 u c := ⟨j 0, j 1, eq_ix2 j⟩
  obtain rfl : u = 0 := Subsingleton.elim _ _
  rw [hB]
  exact (broadcastInDim_apply ![1] hd b (ix2 (0 : Fin 1) c) (ix1 c) (fun a => match a with
    | ⟨0, _⟩ => by
      show c.val = if n = 1 then 0 else c.val
      split
      · have := c.isLt; omega
      · rfl)).symm

/-- A vector of `m` entries cast to one column is its broadcast along axis 0. -/
theorem shapeCast_col_eq {m : Nat} (x : (⟨1, ![m]⟩ : Shape).Idx → α)
    (h : (⟨1, ![m]⟩ : Shape).ShapeCasts ⟨2, ![m, 1]⟩)
    (hd : (⟨1, ![m]⟩ : Shape).BroadcastsInDim ⟨2, ![m, 1]⟩ ![0]) :
    shapeCast ⟨2, ![m, 1]⟩ x h = broadcastInDim ⟨2, ![m, 1]⟩ ![0] hd x := by
  funext j
  obtain ⟨r, u, rfl⟩ : ∃ (r : Fin m) (u : Fin 1), j = ix2 r u := ⟨j 0, j 1, eq_ix2 j⟩
  have e1 := shapeCast_apply x h (ix2 r u) (ix1 r) (by
    rw [Shape.rowMajor_val_two, Shape.rowMajor_val_one]
    show r.val = r.val * 1 + u.val
    have := u.isLt; omega)
  have e2 := broadcastInDim_apply ![0] hd x (ix2 r u) (ix1 r) (fun a => match a with
    | ⟨0, _⟩ => by
      show r.val = if m = 1 then 0 else r.val
      split
      · have := r.isLt; omega
      · rfl)
  exact e1.trans e2.symm

/-- A one-column matrix broadcast across `n` columns is its broadcast along the axes `[0, 1]`. -/
theorem broadcastTo_col_eq {m n : Nat} (y : (⟨2, ![m, 1]⟩ : Shape).Idx → α)
    (h : (⟨2, ![m, 1]⟩ : Shape).Broadcasts ⟨2, ![m, n]⟩)
    (hd : (⟨2, ![m, 1]⟩ : Shape).BroadcastsInDim ⟨2, ![m, n]⟩ ![0, 1]) :
    broadcastTo ⟨2, ![m, n]⟩ y h = broadcastInDim ⟨2, ![m, n]⟩ ![0, 1] hd y := by
  funext j
  obtain ⟨r, c, rfl⟩ : ∃ (r : Fin m) (c : Fin n), j = ix2 r c := ⟨j 0, j 1, eq_ix2 j⟩
  have e1 := broadcastTo_apply y h (ix2 r c) (ix2 r (0 : Fin 1)) (fun a => match a with
    | ⟨0, _⟩ => by
      show r.val = if m = 1 then 0 else r.val
      split
      · have := r.isLt; omega
      · rfl
    | ⟨1, _⟩ => by
      show 0 = if (1 : Nat) = 1 then 0 else c.val
      rw [if_pos rfl])
  have e2 := broadcastInDim_apply ![0, 1] hd y (ix2 r c) (ix2 r (0 : Fin 1)) (fun a => match a with
    | ⟨0, _⟩ => by
      show r.val = if m = 1 then 0 else r.val
      split
      · have := r.isLt; omega
      · rfl
    | ⟨1, _⟩ => by
      show 0 = if (1 : Nat) = 1 then 0 else c.val
      rw [if_pos rfl])
  exact e1.trans e2.symm

end Layout

/-! ## The kernel's head, stage by stage, is the reference's -/

section Kernel
open Cert.ReferenceIdeal Cert.ReferenceIdeal.Gen

/-- The f32 pattern `0xFF800000` denotes `-∞`. -/
theorem ofBits_negInf : Ideal.ofBits .f32 0xFF800000#32 = ⊥ := by simp [Ideal.ofBits, Ideal.ieee]

/-- The hidden layer: a product accumulated into zero of operands whose format change is the
    identity, plus the bias row laid down the rows, against zero. -/
theorem hidden_kernel (P : Arr S500x64) (W1 : Arr S64x64) (B1 : Arr S1x64) (b1 : Arr S64)
    (hB1 : ∀ c : Fin 64, B1 (ix2 (0 : Fin 1) c) = b1 (ix1 c))
    (h1 : S500x64.ShapeCasts S500x64) (h2 : S1x64.ShapeCasts S1x64) (h3 : S1x64.Broadcasts S500x64)
    (hb : FTy.bits .bf16 < FTy.bits .f32) :
    maximumf
        (addf
          (matmul dot_S500x64_S64x64_S500x64_1_0_0_1_n_n none (truncf .bf16 (shapeCast S500x64 P h1) hb)
            (truncf .bf16 W1 hb) (constant (F := Ideal) S500x64 .f32 0x00000000#32))
          (broadcastTo S500x64 (shapeCast S1x64 B1 h2) h3))
        (broadcast S500x64 (Scalar.ofBits (F := Ideal) .f32 0x00000000#32))
      = hidden P W1 b1 := by
  rw [shapeCast_self, shapeCast_self, matmul_zero_eq_dotGeneral,
    broadcastTo_oneRow_eq B1 h3 bcast_S1x64_S500x64_0_1, eq_broadcastInDim_row B1 b1 hB1 bcast_S64_S1x64_1]
  unfold hidden
  rw [broadcastInDim_constant]
  rfl

/-- The output layer likewise. -/
theorem logits_kernel (h : Arr S500x64) (W2 : Arr S64x10) (B2 : Arr S1x10) (b2 : Arr S10)
    (hB2 : ∀ c : Fin 10, B2 (ix2 (0 : Fin 1) c) = b2 (ix1 c))
    (h2 : S1x10.ShapeCasts S1x10) (h3 : S1x10.Broadcasts S500x10) (hb : FTy.bits .bf16 < FTy.bits .f32) :
    addf
        (matmul dot_S500x64_S64x10_S500x10_1_0_0_1_n_n none (truncf .bf16 h hb) (truncf .bf16 W2 hb)
          (constant (F := Ideal) S500x10 .f32 0x00000000#32))
        (broadcastTo S500x10 (shapeCast S1x10 B2 h2) h3)
      = logits h W2 b2 := by
  rw [shapeCast_self, matmul_zero_eq_dotGeneral,
    broadcastTo_oneRow_eq B2 h3 bcast_S1x10_S500x10_0_1, eq_broadcastInDim_row B2 b2 hB2 bcast_S10_S1x10_1]
  rfl

/-- Each row's maximum: the fold of `max` from `-∞` over the row's ten entries, on both sides; the
    reference's second maximum against `-∞` changes nothing. -/
theorem rowMax_kernel (l : Arr S500x10) (hr : S500x10.Reduces [1] S500) (hφ : FKind.Formats .f32)
    (hacc : (0xFF800000#32 : BitVec 32) = FKind.maximumf.neutral .f32 hφ) :
    multiReduction .maximumf [1] S500 l 0xFF800000#32 hr hφ hacc = rowMax l := by
  funext j
  refine (Ideal.multiReduction_maximumf_single l 0xFF800000#32 hr hφ hacc j).trans ?_
  unfold rowMax
  show _ = max (Ideal.ofBits .f32 0xFF800000#32)
    (Host.reduce FloatOps.maximumf l (constant (F := Ideal) S_ .f32 0xFF800000#32) reducesTo_S500x10_S500_d1 h_S_ j)
  rw [Host.reduce_eq_fold_single FloatOps.maximumf l (constant (F := Ideal) S_ .f32 0xFF800000#32)
    reducesTo_S500x10_S500_d1 hr h_S_ j, ofBits_negInf, max_bot_left]
  rfl

/-- The log-softmax of a row: shifted by the row's maximum, less the logarithm of the sum of the
    exponentials of the shifted row. -/
theorem logSoftmax_kernel (l : Arr S500x10) (hr : S500x10.Reduces [1] S500) (h1 : S500.ShapeCasts S500x1)
    (h2 : S500x1.Broadcasts S500x10) (hφ : FKind.Formats .f32)
    (hmax : (0xFF800000#32 : BitVec 32) = FKind.maximumf.neutral .f32 hφ)
    (hadd : (0x00000000#32 : BitVec 32) = FKind.add.neutral .f32 hφ) :
    subf
        (subf l (broadcastTo S500x10 (shapeCast S500x1 (multiReduction .maximumf [1] S500 l 0xFF800000#32 hr hφ hmax) h1) h2))
        (broadcastTo S500x10
          (log (shapeCast S500x1
            (multiReduction .add [1] S500
              (exp (subf l (broadcastTo S500x10
                (shapeCast S500x1 (multiReduction .maximumf [1] S500 l 0xFF800000#32 hr hφ hmax) h1) h2)))
              0x00000000#32 hr hφ hadd) h1)) h2)
      = logSoftmax l := by
  rw [rowMax_kernel l hr hφ hmax, shapeCast_col_eq (rowMax l) h1 bcast_S500_S500x1_0,
    broadcastTo_col_eq _ h2 bcast_S500x1_S500x10_0_1,
    multiReduction_add_eq_hostReduceAdd _ _ hr hφ hadd (constant (F := Ideal) S_ .f32 0x00000000#32)
      reducesTo_S500x10_S500_d1 h_S_ Ideal.ofBits_zero_f32,
    shapeCast_col_eq _ h1 bcast_S500_S500x1_0, broadcastTo_col_eq _ h2 bcast_S500x1_S500x10_0_1]
  rfl

/-- The kernel's two contractions carry the reference's dimension numbers. -/
theorem dot_hidden_eq :
    Cert.KernelIdeal.dot_S500x64_S64x64_S500x64_1_0_0_1_n_n = dot_S500x64_S64x64_S500x64_1_0_0_1_n_n := rfl
theorem dot_logits_eq :
    Cert.KernelIdeal.dot_S500x64_S64x10_S500x10_1_0_0_1_n_n = dot_S500x64_S64x10_S500x10_1_0_0_1_n_n := rfl

/-- THE KERNEL'S HEAD IS THE REFERENCE'S, for bias rows `B1`, `B2` that read the bias vectors. -/
theorem kernel_eq (P : Arr S500x64) (W1 : Arr S64x64) (B1 : Arr S1x64) (W2 : Arr S64x10) (B2 : Arr S1x10)
    (b1 : Arr S64) (b2 : Arr S10)
    (hB1 : ∀ c : Fin 64, B1 (ix2 (0 : Fin 1) c) = b1 (ix1 c))
    (hB2 : ∀ c : Fin 10, B2 (ix2 (0 : Fin 1) c) = b2 (ix1 c)) :
    Cert.KernelIdeal.Gen.k6_pay1 (F := Ideal) P W1 B1 W2 B2 = headRef P W1 b1 W2 b2 := by
  dsimp only [Cert.KernelIdeal.Gen.k6_pay1]
  rw [dot_hidden_eq, dot_logits_eq, hidden_kernel P W1 B1 b1 hB1, logits_kernel _ W2 B2 b2 hB2]
  unfold headRef
  exact logSoftmax_kernel (logits (hidden P W1 b1) W2 b2) _ _ _ _ _ _

end Kernel

end Cert.HeadValue

end
-- ==== Proof.FoldVals.lean ====
/-
  The fold of buffer contents, value by value. Region by region and stretch by stretch, the buffers the idealized
  kernel's @main computes hold the reference's stages of the arguments: a projection region's output is the reference's
  matrix product of equal operands, a bias region's output the reference's bias-and-maximum, a host stretch applies
  the reference's own operations to equal operands, and the last region's output is the reference's head of the pooled
  features — so the result buffer ends at the reference's result.
-/
import proofs.«136268_j11227044511897_1_alg».proof.Proof.Gen.KernelIdeal.Frame
import proofs.«136268_j11227044511897_1_alg».proof.Proof.Gen.ReferenceIdeal.Read
import Idealize.ShloMosaic.Lib.StableHlo.Run
import proofs.«136268_j11227044511897_1_alg».proof.Proof.FoldArgsA
import proofs.«136268_j11227044511897_1_alg».proof.Proof.FoldArgsB
import proofs.«136268_j11227044511897_1_alg».proof.Proof.FoldIdx
import proofs.«136268_j11227044511897_1_alg».proof.Proof.Reg0
import proofs.«136268_j11227044511897_1_alg».proof.Proof.Reg1
import proofs.«136268_j11227044511897_1_alg».proof.Proof.Reg2
import proofs.«136268_j11227044511897_1_alg».proof.Proof.Reg3
import proofs.«136268_j11227044511897_1_alg».proof.Proof.Reg4
import proofs.«136268_j11227044511897_1_alg».proof.Proof.Reg5
import proofs.«136268_j11227044511897_1_alg».proof.Proof.Reg6
import proofs.«136268_j11227044511897_1_alg».proof.Proof.RefStages
import proofs.«136268_j11227044511897_1_alg».proof.Proof.HeadValue
import Idealize.ShloMosaic.Lib.ValueLayout
set_option maxRecDepth 16384

noncomputable section

namespace Cert.KernelIdeal.Fold

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

open Idealize.ShloMosaic.ValueIdx

/-- After region 0 the buffer `main_v28` holds the reference's stage `val_main_v28`. -/
theorem e28 (c : Dev nD) : W2 m ρ c (Proc.devRef .tc main_v28) = Cert.ReferenceIdeal.Read.val_main_v28 (F := Ideal) (m ((c : Thread nD τ).loc main_arg0)) (m ((c : Thread nD τ).loc main_arg3)) := by
  refine (W2_arr m ρ c 2).trans ((Reg0.final (V1 m ρ) c).trans ?_)
  show Cert.Spec.lin (W1 m ρ c (Proc.devRef .tc main_arg0)) (W1 m ρ c (Proc.devRef .tc main_arg3)) = _
  rw [w1_arg0 m ρ c, w1_arg3 m ρ c]
  exact (Cert.RefStages.lin_ref _ _).symm

set_option maxHeartbeats 4000000 in
/-- After the host stretch the buffer `main_v40` holds the reference's stage `val_main_v40`: the same operations of equal operands. -/
theorem e40 (c : Dev nD) : W3 m ρ c (Proc.devRef .tc main_v40) = Cert.ReferenceIdeal.Read.val_main_v40 (F := Ideal) (m ((c : Thread nD τ).loc main_arg0)) (m ((c : Thread nD τ).loc main_arg1)) (m ((c : Thread nD τ).loc main_arg3)) := by
  dsimp only [W3, hostOps1]
  after_results
  simp only [e28 m ρ c, w2_v3 m ρ c, w2_v6 m ρ c, w2_v27 m ρ c]
  unfold Cert.ReferenceIdeal.Read.val_main_v40 Cert.ReferenceIdeal.Read.val_main_v39 Cert.ReferenceIdeal.Read.val_main_v38 Cert.ReferenceIdeal.Read.val_main_cst_6 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_c_5 Cert.ReferenceIdeal.Read.val_main_v30 Cert.ReferenceIdeal.Read.val_main_v29 Cert.ReferenceIdeal.Read.val_main_c_4
  rfl

/-- The bias row `main_v41` is the bias vector laid along one row. -/
theorem e41 (c : Dev nD) (q : Fin 64) :
    (W3 m ρ c (Proc.devRef .tc main_v41) : S1x64.Idx → Elt Ideal .f32) (ix2 (0 : Fin 1) q) = ((m ((c : Thread nD τ).loc main_arg4)) : S64.Idx → Elt Ideal .f32) (ix1 q) := by
  dsimp only [W3, hostOps1]
  after_results
  rw [w2_arg4 m ρ c]
  exact shapeCast_a_1a_apply _ _ 0 q

/-- After region 1 the buffer `main_v42` holds the reference's stage `val_main_v44`. -/
theorem e42 (c : Dev nD) : W4 m ρ c (Proc.devRef .tc main_v42) = Cert.ReferenceIdeal.Read.val_main_v44 (F := Ideal) (m ((c : Thread nD τ).loc main_arg0)) (m ((c : Thread nD τ).loc main_arg1)) (m ((c : Thread nD τ).loc main_arg3)) (m ((c : Thread nD τ).loc main_arg4)) := by
  refine (W4_arr m ρ c 2).trans ((Reg1.final (V3 m ρ) c).trans ?_)
  show Cert.Spec.biasRelu (W3 m ρ c (Proc.devRef .tc main_v40)) (W3 m ρ c (Proc.devRef .tc main_v41)) = _
  rw [e40 m ρ c]
  exact (Cert.RefStages.relu_ref _ (m ((c : Thread nD τ).loc main_arg4)) _ (e41 m ρ c)).symm

/-- After region 2 the buffer `main_v43` holds the reference's stage `val_main_v45`. -/
theorem e43 (c : Dev nD) : W5 m ρ c (Proc.devRef .tc main_v43) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Reg2.final (V4 m ρ) c).trans ?_)
  show Cert.Spec.lin (W4 m ρ c (Proc.devRef .tc main_v42)) (W4 m ρ c (Proc.devRef .tc main_arg5)) = _
  rw [e42 m ρ c, w4_arg5 m ρ c]
  exact (Cert.RefStages.lin_ref _ _).symm

set_option maxHeartbeats 4000000 in
/-- After the host stretch the buffer `main_v55` holds the reference's stage `val_main_v57`: the same operations of equal operands. -/
theorem e55 (c : Dev nD) : W6 m ρ c (Proc.devRef .tc main_v55) = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  dsimp only [W6, hostOps3]
  after_results
  simp only [e43 m ρ c, w5_v3 m ρ c, w5_v6 m ρ c, w5_v27 m ρ c]
  unfold Cert.ReferenceIdeal.Read.val_main_v57 Cert.ReferenceIdeal.Read.val_main_v56 Cert.ReferenceIdeal.Read.val_main_v55 Cert.ReferenceIdeal.Read.val_main_cst_9 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_c_8 Cert.ReferenceIdeal.Read.val_main_v47 Cert.ReferenceIdeal.Read.val_main_v46 Cert.ReferenceIdeal.Read.val_main_c_7
  rfl

/-- The bias row `main_v56` is the bias vector laid along one row. -/
theorem e56 (c : Dev nD) (q : Fin 64) :
    (W6 m ρ c (Proc.devRef .tc main_v56) : S1x64.Idx → Elt Ideal .f32) (ix2 (0 : Fin 1) q) = ((m ((c : Thread nD τ).loc main_arg6)) : S64.Idx → Elt Ideal .f32) (ix1 q) := by
  dsimp only [W6, hostOps3]
  after_results
  rw [w5_arg6 m ρ c]
  exact shapeCast_a_1a_apply _ _ 0 q

/-- After region 3 the buffer `main_v57` holds the reference's stage `val_main_v61`. -/
theorem e57 (c : Dev nD) : W7 m ρ c (Proc.devRef .tc main_v57) = Cert.ReferenceIdeal.Read.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ((Reg3.final (V6 m ρ) c).trans ?_)
  show Cert.Spec.biasRelu (W6 m ρ c (Proc.devRef .tc main_v55)) (W6 m ρ c (Proc.devRef .tc main_v56)) = _
  rw [e55 m ρ c]
  exact (Cert.RefStages.relu_ref _ (m ((c : Thread nD τ).loc main_arg6)) _ (e56 m ρ c)).symm

/-- After region 4 the buffer `main_v58` holds the reference's stage `val_main_v62`. -/
theorem e58 (c : Dev nD) : W8 m ρ c (Proc.devRef .tc main_v58) = Cert.ReferenceIdeal.Read.val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((Reg4.final (V7 m ρ) c).trans ?_)
  show Cert.Spec.lin (W7 m ρ c (Proc.devRef .tc main_v57)) (W7 m ρ c (Proc.devRef .tc main_arg7)) = _
  rw [e57 m ρ c, w7_arg7 m ρ c]
  exact (Cert.RefStages.lin_ref _ _).symm

set_option maxHeartbeats 4000000 in
/-- After the host stretch the buffer `main_v70` holds the reference's stage `val_main_v74`: the same operations of equal operands. -/
theorem e70 (c : Dev nD) : W9 m ρ c (Proc.devRef .tc main_v70) = Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W9, hostOps5]
  after_results
  simp only [e58 m ρ c, w8_v3 m ρ c, w8_v6 m ρ c, w8_v27 m ρ c]
  unfold Cert.ReferenceIdeal.Read.val_main_v74 Cert.ReferenceIdeal.Read.val_main_v73 Cert.ReferenceIdeal.Read.val_main_v72 Cert.ReferenceIdeal.Read.val_main_cst_12 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_c_11 Cert.ReferenceIdeal.Read.val_main_v64 Cert.ReferenceIdeal.Read.val_main_v63 Cert.ReferenceIdeal.Read.val_main_c_10
  rfl

/-- The bias row `main_v71` is the bias vector laid along one row. -/
theorem e71 (c : Dev nD) (q : Fin 64) :
    (W9 m ρ c (Proc.devRef .tc main_v71) : S1x64.Idx → Elt Ideal .f32) (ix2 (0 : Fin 1) q) = ((m ((c : Thread nD τ).loc main_arg8)) : S64.Idx → Elt Ideal .f32) (ix1 q) := by
  dsimp only [W9, hostOps5]
  after_results
  rw [w8_arg8 m ρ c]
  exact shapeCast_a_1a_apply _ _ 0 q

/-- After region 5 the buffer `main_v72` holds the reference's stage `val_main_v78`. -/
theorem e72 (c : Dev nD) : W10 m ρ c (Proc.devRef .tc main_v72) = Cert.ReferenceIdeal.Read.val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Reg5.final (V9 m ρ) c).trans ?_)
  show Cert.Spec.biasRelu (W9 m ρ c (Proc.devRef .tc main_v70)) (W9 m ρ c (Proc.devRef .tc main_v71)) = _
  rw [e70 m ρ c]
  exact (Cert.RefStages.relu_ref _ (m ((c : Thread nD τ).loc main_arg8)) _ (e71 m ρ c)).symm

set_option maxHeartbeats 4000000 in
/-- After the host stretch the buffer `main_v84` holds the reference's stage `val_main_v90`: the same operations of equal operands. -/
theorem e84 (c : Dev nD) : W11 m ρ c (Proc.devRef .tc main_v84) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W11, hostOps6]
  after_results
  simp only [e72 m ρ c, w10_arg2 m ρ c]
  unfold Cert.ReferenceIdeal.Read.val_main_v90 Cert.ReferenceIdeal.Read.val_main_v89 Cert.ReferenceIdeal.Read.val_main_v88 Cert.ReferenceIdeal.Read.val_main_v87 Cert.ReferenceIdeal.Read.val_main_v86 Cert.ReferenceIdeal.Read.val_main_cst_16 Cert.ReferenceIdeal.Read.val_main_v85 Cert.ReferenceIdeal.Read.val_main_v84 Cert.ReferenceIdeal.Read.val_main_v83 Cert.ReferenceIdeal.Read.val_main_cst_15 Cert.ReferenceIdeal.Read.val_main_v82 Cert.ReferenceIdeal.Read.val_main_cst_14 Cert.ReferenceIdeal.Read.val_main_v81 Cert.ReferenceIdeal.Read.val_main_v80 Cert.ReferenceIdeal.Read.val_main_v79 Cert.ReferenceIdeal.Read.val_main_cst_13
  rfl

/-- The bias row `main_v85` is the bias vector laid along one row. -/
theorem e85 (c : Dev nD) (q : Fin 64) :
    (W11 m ρ c (Proc.devRef .tc main_v85) : S1x64.Idx → Elt Ideal .f32) (ix2 (0 : Fin 1) q) = ((m ((c : Thread nD τ).loc main_arg10)) : S64.Idx → Elt Ideal .f32) (ix1 q) := by
  dsimp only [W11, hostOps6]
  after_results
  rw [w10_arg10 m ρ c]
  exact shapeCast_a_1a_apply _ _ 0 q

/-- The bias row `main_v86` is the bias vector laid along one row. -/
theorem e86 (c : Dev nD) (q : Fin 10) :
    (W11 m ρ c (Proc.devRef .tc main_v86) : S1x10.Idx → Elt Ideal .f32) (ix2 (0 : Fin 1) q) = ((m ((c : Thread nD τ).loc main_arg12)) : S10.Idx → Elt Ideal .f32) (ix1 q) := by
  dsimp only [W11, hostOps6]
  after_results
  rw [w10_arg12 m ρ c]
  exact shapeCast_a_1a_apply _ _ 0 q

/-- After the last region the result buffer holds the reference's result. -/
theorem e87 (c : Dev nD) : W12 m ρ c (Proc.devRef .tc main_v87) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ((Reg6.final (V11 m ρ) c).trans ?_)
  show k6_pay1 (F := Ideal) (W11 m ρ c (Proc.devRef .tc main_v84)) (W11 m ρ c (Proc.devRef .tc main_arg9)) (W11 m ρ c (Proc.devRef .tc main_v85)) (W11 m ρ c (Proc.devRef .tc main_arg11)) (W11 m ρ c (Proc.devRef .tc main_v86)) = _
  rw [e84 m ρ c, w11_arg9 m ρ c, w11_arg11 m ρ c]
  exact (Cert.HeadValue.kernel_eq _ _ _ _ _ (m ((c : Thread nD τ).loc main_arg10)) (m ((c : Thread nD τ).loc main_arg12)) (e85 m ρ c) (e86 m ρ c)).trans (Cert.HeadValue.ref_eq _ _ _ _ _ _ _ _ _ _ _ _ _).symm

end Cert.KernelIdeal.Fold

end
-- ==== Proof.lean ====
/-
  The idealized kernel and the idealized reference compute one function of their arguments.

  The network is three graph-convolution layers, a mean pooling per graph and a two-layer head with a log-softmax. Both
  programs compute the edge normalisation, the gathers and scatter-adds of every layer and the pooling with the same
  host operations. The kernel differs only in the dense stages, which it runs as seven regions: each layer's projection
  h W in five row blocks (the operands first changed to a narrower float format, which is the identity on extended
  reals, and multiplied into a zero accumulator), each layer's max (agg + b) 0 in five row blocks, and the head at one
  grid point. At the extended reals a row block of a product is the product's rows, a matrix product into zero is the
  plain sum the host's product is, and the head's body spells the reference's head operation by operation (the
  reference's one extra max (-inf, m) being m). So, stage by stage, the buffers of the kernel's run hold the
  reference's stages of the arguments, and the two results are equal entry by entry. No law that needs finiteness is
  used: the precondition is never opened.

  The three frames: the two kernels' are the frame certificates of the seven regions and the host stretches between
  them; the reference's is its run with the result dropped. The idealization rewrote no operation, so what it preserves
  is trivial.
-/
import proofs.«136268_j11227044511897_1_alg».proof.Defs
import proofs.«136268_j11227044511897_1_alg».proof.Proof.Gen.Kernel
import proofs.«136268_j11227044511897_1_alg».proof.Proof.Gen.Kernel.Skeleton
import proofs.«136268_j11227044511897_1_alg».proof.Proof.Gen.Kernel.Launch
import proofs.«136268_j11227044511897_1_alg».proof.Proof.Gen.Kernel.Points
import proofs.«136268_j11227044511897_1_alg».proof.Proof.Gen.Kernel.Frame
import proofs.«136268_j11227044511897_1_alg».proof.Proof.Gen.KernelIdeal
import proofs.«136268_j11227044511897_1_alg».proof.Proof.Gen.KernelIdeal.Skeleton
import proofs.«136268_j11227044511897_1_alg».proof.Proof.Gen.KernelIdeal.Launch
import proofs.«136268_j11227044511897_1_alg».proof.Proof.Gen.KernelIdeal.Points
import proofs.«136268_j11227044511897_1_alg».proof.Proof.Gen.KernelIdeal.Frame
import proofs.«136268_j11227044511897_1_alg».proof.Proof.Gen.ReferenceIdeal
import proofs.«136268_j11227044511897_1_alg».proof.Proof.Gen.Pre_finite_inputs
import proofs.«136268_j11227044511897_1_alg».proof.Proof.Gen.ReferenceIdeal.Run
import proofs.«136268_j11227044511897_1_alg».proof.Proof.Gen.ReferenceIdeal.Read
import proofs.«136268_j11227044511897_1_alg».proof.Proof.KRun
import proofs.«136268_j11227044511897_1_alg».proof.Proof.FoldVals
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the (agreeing) arguments. -/
theorem algebraic : Cert.algebraic_KernelIdeal_ReferenceIdeal := by
  intro m ρ m' ρ' _ hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Fold.e87 m ρ c), (h c).2⟩)
      (Cert.KernelIdeal.RunValue.run_result m ρ)
  · refine (θ_run Cert.ReferenceIdeal.defs _ _).mono (fun r h c => ⟨?_, (h c).2⟩) (Cert.ReferenceIdeal.Value.run (F := Ideal) m' ρ')
    refine ((h c).1.trans (Cert.ReferenceIdeal.Read.val_main_v100_eq m' c)).trans ?_
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
